-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel

variable [Facts]

def fn {F : FTy → Type} [FloatOps F] (main_arg0 : FVec F S8x2048x768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  main_v3
-- ==== Kernel.lean ====
abbrev S8x2048x768 : Shape := ⟨3, ![8, 2048, 768]⟩
abbrev S1x2048x768 : Shape := ⟨3, ![1, 2048, 768]⟩
abbrev S2048x768 : Shape := ⟨2, ![2048, 768]⟩
abbrev S1024x768 : Shape := ⟨2, ![1024, 768]⟩
abbrev S32x32x768 : Shape := ⟨3, ![32, 32, 768]⟩
abbrev S1x32x768 : Shape := ⟨3, ![1, 32, 768]⟩
abbrev S33x32x768 : Shape := ⟨3, ![33, 32, 768]⟩
abbrev S34x32x768 : Shape := ⟨3, ![34, 32, 768]⟩
abbrev S34x1x768 : Shape := ⟨3, ![34, 1, 768]⟩
abbrev S34x33x768 : Shape := ⟨3, ![34, 33, 768]⟩
abbrev S34x34x768 : Shape := ⟨3, ![34, 34, 768]⟩
abbrev S32x32 : Shape := ⟨2, ![32, 32]⟩
abbrev S32x32x1 : Shape := ⟨3, ![32, 32, 1]⟩
abbrev S1x1024x768 : Shape := ⟨3, ![1, 1024, 768]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x768, .f32⟩
  | .hbm, ⟨1, _⟩ => ⟨S8x2048x768, .f32⟩
  | .local _ .vmem, ⟨0, _⟩ => ⟨S1x2048x768, .f32⟩
  | .local _ .vmem, ⟨1, _⟩ => ⟨S1x2048x768, .f32⟩
  | .local _ .vmem, ⟨2, _⟩ => ⟨S1x2048x768, .f32⟩
  | .local _ .vmem, ⟨3, _⟩ => ⟨S1x2048x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  slices_S2048x768_o0_0_S1024x768 : S2048x768.Slices ![0, 0] S1024x768
  shapeCasts_S1024x768_S32x32x768 : S1024x768.ShapeCasts S32x32x768
  slices_S2048x768_o1024_0_S1024x768 : S2048x768.Slices ![1024, 0] S1024x768
  concatenates_S1x32x768_S32x32x768_S33x32x768_d0 : Shape.Concatenates [S1x32x768, S32x32x768] S33x32x768 0
  concatenates_S33x32x768_S1x32x768_S34x32x768_d0 : Shape.Concatenates [S33x32x768, S1x32x768] S34x32x768 0
  concatenates_S34x1x768_S34x32x768_S34x33x768_d1 : Shape.Concatenates [S34x1x768, S34x32x768] S34x33x768 1
  concatenates_S34x33x768_S34x1x768_S34x34x768_d1 : Shape.Concatenates [S34x33x768, S34x1x768] S34x34x768 1
  reduces_S32x32x768_S32x32 : S32x32x768.Reduces [2] S32x32
  slices_S34x34x768_o0_0_0_S32x32x768 : S34x34x768.Slices ![0, 0, 0] S32x32x768
  slices_S34x34x768_o0_1_0_S32x32x768 : S34x34x768.Slices ![0, 1, 0] S32x32x768
  slices_S34x34x768_o0_2_0_S32x32x768 : S34x34x768.Slices ![0, 2, 0] S32x32x768
  slices_S34x34x768_o1_0_0_S32x32x768 : S34x34x768.Slices ![1, 0, 0] S32x32x768
  slices_S34x34x768_o1_1_0_S32x32x768 : S34x34x768.Slices ![1, 1, 0] S32x32x768
  slices_S34x34x768_o1_2_0_S32x32x768 : S34x34x768.Slices ![1, 2, 0] S32x32x768
  slices_S34x34x768_o2_0_0_S32x32x768 : S34x34x768.Slices ![2, 0, 0] S32x32x768
  slices_S34x34x768_o2_1_0_S32x32x768 : S34x34x768.Slices ![2, 1, 0] S32x32x768
  slices_S34x34x768_o2_2_0_S32x32x768 : S34x34x768.Slices ![2, 2, 0] S32x32x768
  shapeCasts_S32x32_S32x32x1 : S32x32.ShapeCasts S32x32x1
  broadcasts_S32x32x1_S32x32x768 : S32x32x1.Broadcasts S32x32x768
  shapeCasts_S32x32x768_S1024x768 : S32x32x768.ShapeCasts S1024x768
  inb_S1x2048x768_S1x1024x768_0_0_0 : ∀ a, (![0, 0, 0] : Fin 3 → Nat) a + S1x1024x768.size a ≤ S1x2048x768.size a
  h_S1x1024x768 : 0 < S1x1024x768.numel
  shapeCasts_S1x1024x768_S1024x768 : S1x1024x768.ShapeCasts S1024x768
  shapeCasts_S1024x768_S1x1024x768 : S1024x768.ShapeCasts S1x1024x768
  inb_S1x2048x768_S1x1024x768_0_1024_0 : ∀ a, (![0, 1024, 0] : Fin 3 → Nat) a + S1x1024x768.size a ≤ S1x2048x768.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S8x2048x768.size a
  hwx0_0 : ∀ i : grid0.Coords, EltTy.bits .f32 = 32 ∨ (Rect.block (s := S8x2048x768) S1x2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x768.size a ≤ S8x2048x768.size a
  hwx0_1 : ∀ i : grid0.Coords, EltTy.bits .f32 = 32 ∨ (Rect.block (s := S8x2048x768) S1x2048x768.size (cc0_transform_1 i) (hinb0_1 i)).WholeWords (EltTy.packing .f32)

variable [Facts₀]

abbrev win0_0 : Pipeline.Window sig grid0 :=
  Pipeline.Window.ofSpec (Memref.whole main_arg0) S1x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S8x768x2048 : Shape := ⟨3, ![8, 768, 2048]⟩
abbrev S8x1536x32x32 : Shape := ⟨4, ![8, 1536, 32, 32]⟩
abbrev S_ : Shape := ⟨0, ![]⟩
abbrev S8x1536x34x34 : Shape := ⟨4, ![8, 1536, 34, 34]⟩
abbrev S8x32x32 : Shape := ⟨3, ![8, 32, 32]⟩
abbrev S8x1x32x32 : Shape := ⟨4, ![8, 1, 32, 32]⟩

abbrev nBuf : Space → Nat
  | .hbm => 152
  | .vmem => 0
  | .smem => 0
  | _ => 0

abbrev hbmTy0_0 (i : Nat) : BufTy := match i % 128 with
  | 0 => ⟨S8x2048x768, .f32⟩
  | 1 => ⟨S8x768x2048, .f32⟩
  | 2 => ⟨S8x1536x32x32, .f32⟩
  | 3 => ⟨S_, .i32⟩
  | 4 => ⟨S_, .f32⟩
  | 5 => ⟨S8x1536x34x34, .f32⟩
  | 6 => ⟨S8x1536x32x32, .f32⟩
  | 7 => ⟨S_, .f32⟩
  | 8 => ⟨S8x32x32, .f32⟩
  | 9 => ⟨S8x32x32, .f32⟩
  | 10 => ⟨S_, .f32⟩
  | 11 => ⟨S8x32x32, .f32⟩
  | 12 => ⟨S8x32x32, .f32⟩
  | 13 => ⟨S_, .f32⟩
  | 14 => ⟨S8x32x32, .f32⟩
  | 15 => ⟨S8x1536x32x32, .f32⟩
  | 16 => ⟨S8x1536x32x32, .f32⟩
  | 17 => ⟨S_, .f32⟩
  | 18 => ⟨S8x32x32, .f32⟩
  | 19 => ⟨S8x1536x32x32, .f32⟩
  | 20 => ⟨S_, .f32⟩
  | 21 => ⟨S8x32x32, .f32⟩
  | 22 => ⟨S8x32x32, .f32⟩
  | 23 => ⟨S_, .f32⟩
  | 24 => ⟨S8x32x32, .f32⟩
  | 25 => ⟨S8x32x32, .f32⟩
  | 26 => ⟨S8x32x32, .f32⟩
  | 27 => ⟨S8x32x32, .f32⟩
  | 28 => ⟨S8x32x32, .f32⟩
  | 29 => ⟨S8x1536x32x32, .f32⟩
  | 30 => ⟨S8x1536x32x32, .f32⟩
  | 31 => ⟨S_, .f32⟩
  | 32 => ⟨S8x32x32, .f32⟩
  | 33 => ⟨S8x1536x32x32, .f32⟩
  | 34 => ⟨S_, .f32⟩
  | 35 => ⟨S8x32x32, .f32⟩
  | 36 => ⟨S8x32x32, .f32⟩
  | 37 => ⟨S_, .f32⟩
  | 38 => ⟨S8x32x32, .f32⟩
  | 39 => ⟨S8x32x32, .f32⟩
  | 40 => ⟨S8x32x32, .f32⟩
  | 41 => ⟨S8x32x32, .f32⟩
  | 42 => ⟨S8x32x32, .f32⟩
  | 43 => ⟨S8x1536x32x32, .f32⟩
  | 44 => ⟨S8x1536x32x32, .f32⟩
  | 45 => ⟨S_, .f32⟩
  | 46 => ⟨S8x32x32, .f32⟩
  | 47 => ⟨S8x1536x32x32, .f32⟩
  | 48 => ⟨S_, .f32⟩
  | 49 => ⟨S8x32x32, .f32⟩
  | 50 => ⟨S8x32x32, .f32⟩
  | 51 => ⟨S_, .f32⟩
  | 52 => ⟨S8x32x32, .f32⟩
  | 53 => ⟨S8x32x32, .f32⟩
  | 54 => ⟨S8x32x32, .f32⟩
  | 55 => ⟨S8x32x32, .f32⟩
  | 56 => ⟨S8x32x32, .f32⟩
  | 57 => ⟨S8x1536x32x32, .f32⟩
  | 58 => ⟨S8x1536x32x32, .f32⟩
  | 59 => ⟨S_, .f32⟩
  | 60 => ⟨S8x32x32, .f32⟩
  | 61 => ⟨S8x1536x32x32, .f32⟩
  | 62 => ⟨S_, .f32⟩
  | 63 => ⟨S8x32x32, .f32⟩
  | 64 => ⟨S8x32x32, .f32⟩
  | 65 => ⟨S_, .f32⟩
  | 66 => ⟨S8x32x32, .f32⟩
  | 67 => ⟨S8x32x32, .f32⟩
  | 68 => ⟨S8x32x32, .f32⟩
  | 69 => ⟨S8x32x32, .f32⟩
  | 70 => ⟨S8x32x32, .f32⟩
  | 71 => ⟨S8x1536x32x32, .f32⟩
  | 72 => ⟨S8x1536x32x32, .f32⟩
  | 73 => ⟨S_, .f32⟩
  | 74 => ⟨S8x32x32, .f32⟩
  | 75 => ⟨S8x1536x32x32, .f32⟩
  | 76 => ⟨S_, .f32⟩
  | 77 => ⟨S8x32x32, .f32⟩
  | 78 => ⟨S8x32x32, .f32⟩
  | 79 => ⟨S_, .f32⟩
  | 80 => ⟨S8x32x32, .f32⟩
  | 81 => ⟨S8x32x32, .f32⟩
  | 82 => ⟨S8x32x32, .f32⟩
  | 83 => ⟨S8x32x32, .f32⟩
  | 84 => ⟨S8x32x32, .f32⟩
  | 85 => ⟨S8x1536x32x32, .f32⟩
  | 86 => ⟨S8x1536x32x32, .f32⟩
  | 87 => ⟨S_, .f32⟩
  | 88 => ⟨S8x32x32, .f32⟩
  | 89 => ⟨S8x1536x32x32, .f32⟩
  | 90 => ⟨S_, .f32⟩
  | 91 => ⟨S8x32x32, .f32⟩
  | 92 => ⟨S8x32x32, .f32⟩
  | 93 => ⟨S_, .f32⟩
  | 94 => ⟨S8x32x32, .f32⟩
  | 95 => ⟨S8x32x32, .f32⟩
  | 96 => ⟨S8x32x32, .f32⟩
  | 97 => ⟨S8x32x32, .f32⟩
  | 98 => ⟨S8x32x32, .f32⟩
  | 99 => ⟨S8x1536x32x32, .f32⟩
  | 100 => ⟨S8x1536x32x32, .f32⟩
  | 101 => ⟨S_, .f32⟩
  | 102 => ⟨S8x32x32, .f32⟩
  | 103 => ⟨S8x1536x32x32, .f32⟩
  | 104 => ⟨S_, .f32⟩
  | 105 => ⟨S8x32x32, .f32⟩
  | 106 => ⟨S8x32x32, .f32⟩
  | 107 => ⟨S_, .f32⟩
  | 108 => ⟨S8x32x32, .f32⟩
  | 109 => ⟨S8x32x32, .f32⟩
  | 110 => ⟨S8x32x32, .f32⟩
  | 111 => ⟨S8x32x32, .f32⟩
  | 112 => ⟨S8x32x32, .f32⟩
  | 113 => ⟨S8x1536x32x32, .f32⟩
  | 114 => ⟨S8x1536x32x32, .f32⟩
  | 115 => ⟨S_, .f32⟩
  | 116 => ⟨S8x32x32, .f32⟩
  | 117 => ⟨S8x1536x32x32, .f32⟩
  | 118 => ⟨S_, .f32⟩
  | 119 => ⟨S8x32x32, .f32⟩
  | 120 => ⟨S8x32x32, .f32⟩
  | 121 => ⟨S_, .f32⟩
  | 122 => ⟨S8x32x32, .f32⟩
  | 123 => ⟨S8x32x32, .f32⟩
  | 124 => ⟨S8x32x32, .f32⟩
  | 125 => ⟨S8x32x32, .f32⟩
  | 126 => ⟨S8x32x32, .f32⟩
  | 127 => ⟨S8x1536x32x32, .f32⟩
  | _ => ⟨S8x2048x768, .f32⟩

abbrev hbmTy0_1 (i : Nat) : BufTy := match i % 128 with
  | 0 => ⟨S8x1536x32x32, .f32⟩
  | 1 => ⟨S_, .f32⟩
  | 2 => ⟨S8x32x32, .f32⟩
  | 3 => ⟨S8x1536x32x32, .f32⟩
  | 4 => ⟨S_, .f32⟩
  | 5 => ⟨S8x32x32, .f32⟩
  | 6 => ⟨S8x32x32, .f32⟩
  | 7 => ⟨S_, .f32⟩
  | 8 => ⟨S8x32x32, .f32⟩
  | 9 => ⟨S8x32x32, .f32⟩
  | 10 => ⟨S8x32x32, .f32⟩
  | 11 => ⟨S8x32x32, .f32⟩
  | 12 => ⟨S8x32x32, .f32⟩
  | 13 => ⟨S_, .f32⟩
  | 14 => ⟨S8x32x32, .f32⟩
  | 15 => ⟨S8x32x32, .f32⟩
  | 16 => ⟨S_, .f32⟩
  | 17 => ⟨S8x32x32, .f32⟩
  | 18 => ⟨S8x32x32, .f32⟩
  | 19 => ⟨S8x1x32x32, .f32⟩
  | 20 => ⟨S8x1536x32x32, .f32⟩
  | 21 => ⟨S8x1536x32x32, .f32⟩
  | 22 => ⟨S8x768x2048, .f32⟩
  | 23 => ⟨S8x2048x768, .f32⟩
  | _ => ⟨S8x2048x768, .f32⟩

abbrev hbmTy (i : Nat) : BufTy := match i / 128 with
  | 0 => hbmTy0_0 i
  | 1 => hbmTy0_1 i
  | _ => ⟨S8x2048x768, .f32⟩

abbrev bufTy : (tb : Table) → Fin (tcTables nBuf tb) → BufTy
  | .hbm, ⟨i, _⟩ => hbmTy i
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_cst_10 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_v45 : Ref sig .tc := ⟨.hbm, 61, rfl⟩
abbrev main_cst_12 : Ref sig .tc := ⟨.hbm, 62, rfl⟩
abbrev main_v46 : Ref sig .tc := ⟨.hbm, 63, rfl⟩
abbrev main_v47 : Ref sig .tc := ⟨.hbm, 64, rfl⟩
abbrev main_cst_13 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_cst_15 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_17 : Ref sig .tc := ⟨.hbm, 87, rfl⟩
abbrev main_v66 : Ref sig .tc := ⟨.hbm, 88, rfl⟩
abbrev main_v67 : Ref sig .tc := ⟨.hbm, 89, rfl⟩
abbrev main_cst_18 : Ref sig .tc := ⟨.hbm, 90, rfl⟩
abbrev main_v68 : Ref sig .tc := ⟨.hbm, 91, rfl⟩
abbrev main_v69 : Ref sig .tc := ⟨.hbm, 92, rfl⟩
abbrev main_cst_19 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_20 : Ref sig .tc := ⟨.hbm, 101, rfl⟩
abbrev main_v77 : Ref sig .tc := ⟨.hbm, 102, rfl⟩
abbrev main_v78 : Ref sig .tc := ⟨.hbm, 103, rfl⟩
abbrev main_cst_21 : Ref sig .tc := ⟨.hbm, 104, rfl⟩
abbrev main_v79 : Ref sig .tc := ⟨.hbm, 105, rfl⟩
abbrev main_v80 : Ref sig .tc := ⟨.hbm, 106, rfl⟩
abbrev main_cst_22 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_23 : Ref sig .tc := ⟨.hbm, 115, rfl⟩
abbrev main_v88 : Ref sig .tc := ⟨.hbm, 116, rfl⟩
abbrev main_v89 : Ref sig .tc := ⟨.hbm, 117, rfl⟩
abbrev main_cst_24 : Ref sig .tc := ⟨.hbm, 118, rfl⟩
abbrev main_v90 : Ref sig .tc := ⟨.hbm, 119, rfl⟩
abbrev main_v91 : Ref sig .tc := ⟨.hbm, 120, rfl⟩
abbrev main_cst_25 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_26 : Ref sig .tc := ⟨.hbm, 129, rfl⟩
abbrev main_v99 : Ref sig .tc := ⟨.hbm, 130, rfl⟩
abbrev main_v100 : Ref sig .tc := ⟨.hbm, 131, rfl⟩
abbrev main_cst_27 : Ref sig .tc := ⟨.hbm, 132, rfl⟩
abbrev main_v101 : Ref sig .tc := ⟨.hbm, 133, rfl⟩
abbrev main_v102 : Ref sig .tc := ⟨.hbm, 134, rfl⟩
abbrev main_cst_28 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_29 : Ref sig .tc := ⟨.hbm, 141, rfl⟩
abbrev main_v108 : Ref sig .tc := ⟨.hbm, 142, rfl⟩
abbrev main_v109 : Ref sig .tc := ⟨.hbm, 143, rfl⟩
abbrev main_cst_30 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩

abbrev nD : Nat := 1
abbrev τ : Topo := Topo.v7x

variable {F : FTy → Type} [FloatOps F]

class Facts₀ : Prop where
  transposes_S8x2048x768_S8x768x2048_0_2_1 : S8x2048x768.Transposes [0, 2, 1] S8x768x2048
  shapeCasts_S8x768x2048_S8x1536x32x32 : S8x768x2048.ShapeCasts S8x1536x32x32
  pads_S8x1536x32x32_S8x1536x34x34_000_000_110_110 : S8x1536x32x32.Pads (![0, 0, 1, 1] : Fin 4 → Nat) ![0, 0, 1, 1] ![0, 0, 0, 0] S8x1536x34x34
  h_S_ : 0 < S_.numel
  reducesTo_S8x1536x32x32_S8x32x32_d1 : S8x1536x32x32.ReducesTo [1] S8x32x32
  bcast_S_S8x32x32 : S_.BroadcastsInDim S8x32x32 (![] : Fin 0 → Fin S8x32x32.rank)
  slices_S8x1536x34x34_S8x1536x32x32_0_0_0_0 : S8x1536x34x34.Slices ![0, 0, 0, 0] S8x1536x32x32
  slices_S8x1536x34x34_S8x1536x32x32_0_0_0_1 : S8x1536x34x34.Slices ![0, 0, 0, 1] S8x1536x32x32
  slices_S8x1536x34x34_S8x1536x32x32_0_0_0_2 : S8x1536x34x34.Slices ![0, 0, 0, 2] S8x1536x32x32
  slices_S8x1536x34x34_S8x1536x32x32_0_0_1_0 : S8x1536x34x34.Slices ![0, 0, 1, 0] S8x1536x32x32
  slices_S8x1536x34x34_S8x1536x32x32_0_0_1_1 : S8x1536x34x34.Slices ![0, 0, 1, 1] S8x1536x32x32
  slices_S8x1536x34x34_S8x1536x32x32_0_0_1_2 : S8x1536x34x34.Slices ![0, 0, 1, 2] S8x1536x32x32
  slices_S8x1536x34x34_S8x1536x32x32_0_0_2_0 : S8x1536x34x34.Slices ![0, 0, 2, 0] S8x1536x32x32
  slices_S8x1536x34x34_S8x1536x32x32_0_0_2_1 : S8x1536x34x34.Slices ![0, 0, 2, 1] S8x1536x32x32
  slices_S8x1536x34x34_S8x1536x32x32_0_0_2_2 : S8x1536x34x34.Slices ![0, 0, 2, 2] S8x1536x32x32
  bcast_S8x32x32_S8x1x32x32_0_2_3 : S8x32x32.BroadcastsInDim S8x1x32x32 (![0, 2, 3] : Fin 3 → Fin S8x1x32x32.rank)
  bcast_S8x1x32x32_S8x1536x32x32_0_1_2_3 : S8x1x32x32.BroadcastsInDim S8x1536x32x32 (![0, 1, 2, 3] : Fin 4 → Fin S8x1536x32x32.rank)
  shapeCasts_S8x1536x32x32_S8x768x2048 : S8x1536x32x32.ShapeCasts S8x768x2048
  transposes_S8x768x2048_S8x2048x768_0_2_1 : S8x768x2048.Transposes [0, 2, 1] S8x2048x768

variable [Facts₀]

class Facts : Prop extends Facts₀ where

variable [Facts]
-- ==== Proof.KernelReads.lean ====
/-
  The kernel's layout operations and lane sums, read at an index, at the exact instance.

  The body loads one batch's block `P` of shape [1, 2048, 768] and views its two halves of 1024 sequence
  positions as images [32, 32, 768]: half `e` at pixel `(h, w)`, channel `c`, is `P (0, e · 1024 + h · 32 + w, c)`
  (`half0_read`, `half1_read`). Each half is bordered by one pixel of the padding value on all four sides by four
  concatenations — a row in front and a row behind along the first axis, then a column in front and a column
  behind along the second — so the bordered image [34, 34, 768] at `(a, d, c)` is the half at `(a - 1, d - 1, c)`
  when `1 ≤ a, d ≤ 32` and the padding value elsewhere (`bordered_in`, `bordered_out`). A window is the
  [32, 32, 768] slice of the bordered image at offsets `(i, j, 0)`: at `(h, w, c)` it is the bordered image at
  `(h + i, w + j, c)` (`slice_read`). A lane sum of a product of two images at pixel `(h, w)` is the sum over the
  768 channels of the products there (`laneSum_read`).
-/
import proofs.«165843_j36532991820508_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Reads

open Cert.KernelIdeal Cert.KernelIdeal.Gen Idealize.ShloMosaic Idealize.ShloMosaic.ValueIdx

/-! ## A lane sum of a product -/

/-- The sum along the channel axis of a product of two images, at a pixel. -/
theorem laneSum_read (U V : FVec Ideal S32x32x768 .f32) (h w : Fin 32) :
    multiReduction .add [2] S32x32 (mulf U V) 0x00000000#32 reduces_S32x32x768_S32x32 (.inl rfl) rfl (ix2 h w)
      = ∑ c : Fin 768, U (ix3 h w c) * V (ix3 h w c) := by
  refine (Ideal.multiReduction_add_single (mulf U V) 0x00000000#32 reduces_S32x32x768_S32x32 (.inl rfl) rfl (ix2 h w)).trans ?_
  show ∑ k : Fin 768, (mulf U V) (reduces_S32x32x768_S32x32.lift (ix2 h w) k) = _
  refine Finset.sum_congr rfl fun c _ => ?_
  have e : reduces_S32x32x768_S32x32.lift (ix2 h w) c = ix3 h w c :=
    funext fun a => Fin.ext (by match a with | ⟨0, _⟩ => rfl | ⟨1, _⟩ => rfl | ⟨2, _⟩ => rfl)
  rw [e]
  rfl

/-! ## The two halves of the block as images -/

/-- The first half at a pixel. -/
theorem half0_read (P : Vec Ideal S1x2048x768 .f32) (h w : Fin 32) (c : Fin 768) :
    k0_pay5 P (ix3 h w c)
      = P (ix3 (0 : Fin 1) (⟨h.val * 32 + w.val, by have := h.isLt; have := w.isLt; omega⟩ : Fin 2048) c) := by
  have hh := h.isLt; have hw := w.isLt
  show shapeCast S32x32x768 (extractStridedSlice S1024x768 ![0, 0] (shapeCast S2048x768 P shapeCasts_S1x2048x768_S2048x768)
      slices_S2048x768_o0_0_S1024x768) shapeCasts_S1024x768_S32x32x768 (ix3 h w c) = _
  refine (shapeCast_apply _ shapeCasts_S1024x768_S32x32x768 (ix3 h w c)
    (ix2 (⟨h.val * 32 + w.val, by omega⟩ : Fin 1024) c) ?_).trans ?_
  · rw [Shape.rowMajor_val_two, Shape.rowMajor_val_three]
    show (h.val * 32 + w.val) * 768 + c.val = (h.val * 32 + w.val) * 768 + c.val
    rfl
  refine (extractStridedSlice_apply ![0, 0] _ slices_S2048x768_o0_0_S1024x768 _
    (ix2 (⟨h.val * 32 + w.val, by omega⟩ : Fin 2048) c) (fun a => ?_)).trans ?_
  · match a with
    | ⟨0, _⟩ => show h.val * 32 + w.val = 0 + (h.val * 32 + w.val); omega
    | ⟨1, _⟩ => show c.val = 0 + c.val; omega
  refine shapeCast_apply P shapeCasts_S1x2048x768_S2048x768 _
    (ix3 (0 : Fin 1) (⟨h.val * 32 + w.val, by omega⟩ : Fin 2048) c) ?_
  rw [Shape.rowMajor_val_three, Shape.rowMajor_val_two]
  show (0 * 2048 + (h.val * 32 + w.val)) * 768 + c.val = (h.val * 32 + w.val) * 768 + c.val
  omega

/-- The second half at a pixel: 1024 sequence positions further on. -/
theorem half1_read (P : Vec Ideal S1x2048x768 .f32) (h w : Fin 32) (c : Fin 768) :
    k0_pay6 P (ix3 h w c)
      = P (ix3 (0 : Fin 1) (⟨1024 + h.val * 32 + w.val, by have := h.isLt; have := w.isLt; omega⟩ : Fin 2048) c) := by
  have hh := h.isLt; have hw := w.isLt
  show shapeCast S32x32x768 (extractStridedSlice S1024x768 ![1024, 0] (shapeCast S2048x768 P shapeCasts_S1x2048x768_S2048x768)
      slices_S2048x768_o1024_0_S1024x768) shapeCasts_S1024x768_S32x32x768 (ix3 h w c) = _
  refine (shapeCast_apply _ shapeCasts_S1024x768_S32x32x768 (ix3 h w c)
    (ix2 (⟨h.val * 32 + w.val, by omega⟩ : Fin 1024) c) ?_).trans ?_
  · rw [Shape.rowMajor_val_two, Shape.rowMajor_val_three]
    show (h.val * 32 + w.val) * 768 + c.val = (h.val * 32 + w.val) * 768 + c.val
    rfl
  refine (extractStridedSlice_apply ![1024, 0] _ slices_S2048x768_o1024_0_S1024x768 _
    (ix2 (⟨1024 + h.val * 32 + w.val, by omega⟩ : Fin 2048) c) (fun a => ?_)).trans ?_
  · match a with
    | ⟨0, _⟩ => show 1024 + h.val * 32 + w.val = 1024 + (h.val * 32 + w.val); omega
    | ⟨1, _⟩ => show c.val = 0 + c.val; omega
  refine shapeCast_apply P shapeCasts_S1x2048x768_S2048x768 _
    (ix3 (0 : Fin 1) (⟨1024 + h.val * 32 + w.val, by omega⟩ : Fin 2048) c) ?_
  rw [Shape.rowMajor_val_three, Shape.rowMajor_val_two]
  show (0 * 2048 + (1024 + h.val * 32 + w.val)) * 768 + c.val = (1024 + h.val * 32 + w.val) * 768 + c.val
  omega

/-! ## One concatenation at a time

Each of the four concatenations joins two pieces along one axis; an index whose coordinate on that axis is
below the first piece's extent reads the first piece there, any other the second piece, the extent less. -/

/-- A row in front, along the first axis: row 0 is the front piece. -/
theorem rowFront_left (x1 : FVec Ideal S1x32x768 .f32) (x2 : FVec Ideal S32x32x768 .f32) (a : Fin 33) (d : Fin 32) (c : Fin 768)
    (ha : a.val = 0) :
    concatenate S33x32x768 0 [⟨S1x32x768, x1⟩, ⟨S32x32x768, x2⟩] concatenates_S1x32x768_S32x32x768_S33x32x768_d0 (ix3 a d c)
      = x1 (ix3 (0 : Fin 1) d c) :=
  concatenate_pair_apply_left 0 x1 x2 concatenates_S1x32x768_S32x32x768_S33x32x768_d0 (ix3 a d c) rfl (ix3 (0 : Fin 1) d c)
    (fun b => by match b with | ⟨0, _⟩ => exact ha.symm | ⟨1, _⟩ => rfl | ⟨2, _⟩ => rfl)

/-- … and rows 1 to 32 are the image's rows 0 to 31. -/
theorem rowFront_right (x1 : FVec Ideal S1x32x768 .f32) (x2 : FVec Ideal S32x32x768 .f32) (a : Fin 33) (d : Fin 32) (c : Fin 768)
    (ha : 1 ≤ a.val) :
    concatenate S33x32x768 0 [⟨S1x32x768, x1⟩, ⟨S32x32x768, x2⟩] concatenates_S1x32x768_S32x32x768_S33x32x768_d0 (ix3 a d c)
      = x2 (ix3 (⟨a.val - 1, by have := a.isLt; omega⟩ : Fin 32) d c) :=
  concatenate_pair_apply_right 0 x1 x2 concatenates_S1x32x768_S32x32x768_S33x32x768_d0 (ix3 a d c) rfl rfl
    (ix3 (⟨a.val - 1, by have := a.isLt; omega⟩ : Fin 32) d c)
    (fun b hb => by match b with | ⟨0, _⟩ => exact absurd rfl hb | ⟨1, _⟩ => rfl | ⟨2, _⟩ => rfl)
    (by show a.val - 1 + 1 = a.val; omega)

/-- A row behind, along the first axis: rows 0 to 32 are the front piece's. -/
theorem rowBack_left (x1 : FVec Ideal S33x32x768 .f32) (x2 : FVec Ideal S1x32x768 .f32) (a : Fin 34) (d : Fin 32) (c : Fin 768)
    (ha : a.val < 33) :
    concatenate S34x32x768 0 [⟨S33x32x768, x1⟩, ⟨S1x32x768, x2⟩] concatenates_S33x32x768_S1x32x768_S34x32x768_d0 (ix3 a d c)
      = x1 (ix3 (⟨a.val, ha⟩ : Fin 33) d c) :=
  concatenate_pair_apply_left 0 x1 x2 concatenates_S33x32x768_S1x32x768_S34x32x768_d0 (ix3 a d c) rfl (ix3 (⟨a.val, ha⟩ : Fin 33) d c)
    (fun b => by match b with | ⟨0, _⟩ => rfl | ⟨1, _⟩ => rfl | ⟨2, _⟩ => rfl)

/-- … and row 33 is the back piece. -/
theorem rowBack_right (x1 : FVec Ideal S33x32x768 .f32) (x2 : FVec Ideal S1x32x768 .f32) (a : Fin 34) (d : Fin 32) (c : Fin 768)
    (ha : a.val = 33) :
    concatenate S34x32x768 0 [⟨S33x32x768, x1⟩, ⟨S1x32x768, x2⟩] concatenates_S33x32x768_S1x32x768_S34x32x768_d0 (ix3 a d c)
      = x2 (ix3 (0 : Fin 1) d c) :=
  concatenate_pair_apply_right 0 x1 x2 concatenates_S33x32x768_S1x32x768_S34x32x768_d0 (ix3 a d c) rfl rfl (ix3 (0 : Fin 1) d c)
    (fun b hb => by match b with | ⟨0, _⟩ => exact absurd rfl hb | ⟨1, _⟩ => rfl | ⟨2, _⟩ => rfl)
    (by show 0 + 33 = a.val; omega)

/-- A column in front, along the second axis: column 0 is the front piece. -/
theorem colFront_left (x1 : FVec Ideal S34x1x768 .f32) (x2 : FVec Ideal S34x32x768 .f32) (a : Fin 34) (d : Fin 33) (c : Fin 768)
    (hd : d.val = 0) :
    concatenate S34x33x768 1 [⟨S34x1x768, x1⟩, ⟨S34x32x768, x2⟩] concatenates_S34x1x768_S34x32x768_S34x33x768_d1 (ix3 a d c)
      = x1 (ix3 a (0 : Fin 1) c) :=
  concatenate_pair_apply_left 1 x1 x2 concatenates_S34x1x768_S34x32x768_S34x33x768_d1 (ix3 a d c) rfl (ix3 a (0 : Fin 1) c)
    (fun b => by match b with | ⟨0, _⟩ => rfl | ⟨1, _⟩ => exact hd.symm | ⟨2, _⟩ => rfl)

/-- … and columns 1 to 32 are the image's columns 0 to 31. -/
theorem colFront_right (x1 : FVec Ideal S34x1x768 .f32) (x2 : FVec Ideal S34x32x768 .f32) (a : Fin 34) (d : Fin 33) (c : Fin 768)
    (hd : 1 ≤ d.val) :
    concatenate S34x33x768 1 [⟨S34x1x768, x1⟩, ⟨S34x32x768, x2⟩] concatenates_S34x1x768_S34x32x768_S34x33x768_d1 (ix3 a d c)
      = x2 (ix3 a (⟨d.val - 1, by have := d.isLt; omega⟩ : Fin 32) c) :=
  concatenate_pair_apply_right 1 x1 x2 concatenates_S34x1x768_S34x32x768_S34x33x768_d1 (ix3 a d c) rfl rfl
    (ix3 a (⟨d.val - 1, by have := d.isLt; omega⟩ : Fin 32) c)
    (fun b hb => by match b with | ⟨0, _⟩ => rfl | ⟨1, _⟩ => exact absurd rfl hb | ⟨2, _⟩ => rfl)
    (by show d.val - 1 + 1 = d.val; omega)

/-- A column behind, along the second axis: columns 0 to 32 are the front piece's. -/
theorem colBack_left (x1 : FVec Ideal S34x33x768 .f32) (x2 : FVec Ideal S34x1x768 .f32) (a : Fin 34) (d : Fin 34) (c : Fin 768)
    (hd : d.val < 33) :
    concatenate S34x34x768 1 [⟨S34x33x768, x1⟩, ⟨S34x1x768, x2⟩] concatenates_S34x33x768_S34x1x768_S34x34x768_d1 (ix3 a d c)
      = x1 (ix3 a (⟨d.val, hd⟩ : Fin 33) c) :=
  concatenate_pair_apply_left 1 x1 x2 concatenates_S34x33x768_S34x1x768_S34x34x768_d1 (ix3 a d c) rfl (ix3 a (⟨d.val, hd⟩ : Fin 33) c)
    (fun b => by match b with | ⟨0, _⟩ => rfl | ⟨1, _⟩ => rfl | ⟨2, _⟩ => rfl)

/-- … and column 33 is the back piece. -/
theorem colBack_right (x1 : FVec Ideal S34x33x768 .f32) (x2 : FVec Ideal S34x1x768 .f32) (a : Fin 34) (d : Fin 34) (c : Fin 768)
    (hd : d.val = 33) :
    concatenate S34x34x768 1 [⟨S34x33x768, x1⟩, ⟨S34x1x768, x2⟩] concatenates_S34x33x768_S34x1x768_S34x34x768_d1 (ix3 a d c)
      = x2 (ix3 a (0 : Fin 1) c) :=
  concatenate_pair_apply_right 1 x1 x2 concatenates_S34x33x768_S34x1x768_S34x34x768_d1 (ix3 a d c) rfl rfl (ix3 a (0 : Fin 1) c)
    (fun b hb => by match b with | ⟨0, _⟩ => rfl | ⟨1, _⟩ => exact absurd rfl hb | ⟨2, _⟩ => rfl)
    (by show 0 + 33 = d.val; omega)

/-! ## The bordered image -/

/-- An image with one pixel of `z` on all four sides, as the body builds it. -/
def bordered (X : FVec Ideal S32x32x768 .f32) (z : EReal) : FVec Ideal S34x34x768 .f32 :=
  concatenate S34x34x768 1 [⟨S34x33x768,
      concatenate S34x33x768 1 [⟨S34x1x768, broadcast S34x1x768 z⟩, ⟨S34x32x768,
        concatenate S34x32x768 0 [⟨S33x32x768,
          concatenate S33x32x768 0 [⟨S1x32x768, broadcast S1x32x768 z⟩, ⟨S32x32x768, X⟩]
            concatenates_S1x32x768_S32x32x768_S33x32x768_d0⟩, ⟨S1x32x768, broadcast S1x32x768 z⟩]
          concatenates_S33x32x768_S1x32x768_S34x32x768_d0⟩]
        concatenates_S34x1x768_S34x32x768_S34x33x768_d1⟩, ⟨S34x1x768, broadcast S34x1x768 z⟩]
    concatenates_S34x33x768_S34x1x768_S34x34x768_d1

/-- Inside the border: the image, one pixel up and one to the left. -/
theorem bordered_in (X : FVec Ideal S32x32x768 .f32) (z : EReal) (a d : Fin 34) (c : Fin 768)
    (ha : 1 ≤ a.val ∧ a.val ≤ 32) (hd : 1 ≤ d.val ∧ d.val ≤ 32) :
    bordered X z (ix3 a d c) = X (ix3 (⟨a.val - 1, by omega⟩ : Fin 32) (⟨d.val - 1, by omega⟩ : Fin 32) c) := by
  unfold bordered
  rw [colBack_left _ _ a d c (by omega)]
  rw [colFront_right _ _ a ⟨d.val, by omega⟩ c (by show 1 ≤ d.val; omega)]
  rw [rowBack_left _ _ a ⟨d.val - 1, by omega⟩ c (by omega)]
  rw [rowFront_right _ _ ⟨a.val, by omega⟩ ⟨d.val - 1, by omega⟩ c (by show 1 ≤ a.val; omega)]

/-- On the border: the padding value. -/
theorem bordered_out (X : FVec Ideal S32x32x768 .f32) (z : EReal) (a d : Fin 34) (c : Fin 768)
    (h : ¬((1 ≤ a.val ∧ a.val ≤ 32) ∧ (1 ≤ d.val ∧ d.val ≤ 32))) :
    bordered X z (ix3 a d c) = z := by
  have hal := a.isLt; have hdl := d.isLt
  unfold bordered
  by_cases hd33 : d.val = 33
  · rw [colBack_right _ _ a d c hd33]; rfl
  rw [colBack_left _ _ a d c (by omega)]
  by_cases hd0 : d.val = 0
  · rw [colFront_left _ _ a ⟨d.val, by omega⟩ c (by show d.val = 0; exact hd0)]; rfl
  rw [colFront_right _ _ a ⟨d.val, by omega⟩ c (by show 1 ≤ d.val; omega)]
  by_cases ha33 : a.val = 33
  · rw [rowBack_right _ _ a ⟨d.val - 1, by omega⟩ c ha33]; rfl
  rw [rowBack_left _ _ a ⟨d.val - 1, by omega⟩ c (by omega)]
  have ha0 : a.val = 0 := by omega
  rw [rowFront_left _ _ ⟨a.val, by omega⟩ ⟨d.val - 1, by omega⟩ c (by show a.val = 0; exact ha0)]; rfl

/-- The body's two bordered halves are `bordered` of the two halves, the border the integer zero converted. -/
theorem pay7_eq (P : Vec Ideal S1x2048x768 .f32) : k0_pay7 P = bordered (k0_pay5 P) (Scalar.sitofp (F := Ideal) .f32 (0#32 : BitVec 32)) := rfl
theorem pay8_eq (P : Vec Ideal S1x2048x768 .f32) : k0_pay8 P = bordered (k0_pay6 P) (Scalar.sitofp (F := Ideal) .f32 (0#32 : BitVec 32)) := rfl

/-! ## A window of the bordered image -/

/-- The [32, 32, 768] slice at offsets `(i, j, 0)`, `i, j ≤ 2`, at a pixel: the bordered image `i` rows down and `j`
    columns to the right. -/
theorem slice_read (i j : ℕ) (hi : i ≤ 2) (hj : j ≤ 2) (V : FVec Ideal S34x34x768 .f32)
    (hs : S34x34x768.Slices ![i, j, 0] S32x32x768) (h w : Fin 32) (c : Fin 768) :
    extractStridedSlice S32x32x768 ![i, j, 0] V hs (ix3 h w c)
      = V (ix3 (⟨h.val + i, by have := h.isLt; omega⟩ : Fin 34) (⟨w.val + j, by have := w.isLt; omega⟩ : Fin 34) c) :=
  extractStridedSlice_apply ![i, j, 0] V hs (ix3 h w c) _ (fun a => by
    match a with
    | ⟨0, _⟩ => show h.val + i = i + h.val; omega
    | ⟨1, _⟩ => show w.val + j = j + w.val; omega
    | ⟨2, _⟩ => show c.val = 0 + c.val; omega)

end Cert.KernelIdeal.Reads

end
-- ==== Proof.LibEvenOdd.lean ====
/-
  A finite sum split by parity of the position.

  Over any additive commutative monoid, the sum of `g` over the positions `0, 1, …, 2n - 1` is the sum over
  the even positions `2c` plus the sum over the odd positions `2c + 1` (`c < n`): every position is
  `e + 2c` for exactly one pair `(c, e)` with `e < 2`, so the sum is a double sum over `c` and `e`,
  the inner one has two terms, and a sum of pairwise sums is the sum of the two sums. Only commutativity
  and associativity of `+` are used, so the statement holds in the extended reals with no finiteness
  assumption on the terms.
-/
import Mathlib.Algebra.BigOperators.Fin
import Mathlib.Logic.Equiv.Fin.Basic

namespace Cert.Lib.EvenOdd

/-- The sum over `Fin (n * 2)` is the sum over the even positions plus the sum over the odd ones. -/
theorem sum_even_add_sum_odd {M : Type*} [AddCommMonoid M] (n : ℕ) (g : Fin (n * 2) → M) :
    ∑ k, g k = (∑ c : Fin n, g ⟨2 * c.val, by have := c.isLt; omega⟩)
      + ∑ c : Fin n, g ⟨2 * c.val + 1, by have := c.isLt; omega⟩ := by
  rw [← finProdFinEquiv.sum_comp, Fintype.sum_prod_type, ← Finset.sum_add_distrib]
  refine Finset.sum_congr rfl fun c _ => ?_
  rw [Fin.sum_univ_two]
  refine congrArg₂ (· + ·) (congrArg g (Fin.ext ?_)) (congrArg g (Fin.ext ?_))
  · show (0 : Fin 2).val + 2 * c.val = 2 * c.val
    simp
  · show (1 : Fin 2).val + 2 * c.val = 2 * c.val + 1
    simp [Nat.add_comm]

/-- The same over a literal even length: 1536 positions as 768 even plus 768 odd ones. -/
theorem sum_fin_1536 {M : Type*} [AddCommMonoid M] (g : Fin 1536 → M) :
    ∑ k, g k = (∑ c : Fin 768, g ⟨2 * c.val, by have := c.isLt; omega⟩)
      + ∑ c : Fin 768, g ⟨2 * c.val + 1, by have := c.isLt; omega⟩ :=
  sum_even_add_sum_odd 768 g

end Cert.Lib.EvenOdd
-- ==== Proof.Spec.lean ====
/-
  The specification: what both programs compute, as ONE function `G` of the argument array, index by index.

  The argument is an array `A` of shape [8, 2048, 768]: batch `b`, sequence position `s`, channel `c`. A sequence
  position is `s = e · 1024 + h · 32 + w` with a half `e < 2` and a pixel `(h, w)` of a 32 × 32 image, so each
  pixel of each batch carries two rows of 768 channels: `A (b, e · 1024 + h · 32 + w, c)` for `e = 0, 1`
  (`centre`). Around the image lies a border one pixel wide holding the padding value; the rows of pixel
  `(h + i - 1, w + j - 1)` of the bordered image, for a window offset `(i, j)` with `i, j < 3`, are `window`.

  For two pairs of rows `u`, `v`: `pairSum u v` is the sum over the 768 channels of the products of the first rows
  plus the same for the second rows; `rowNorm u = max (sqrt (pairSum u u)) eps`; the cosine term is
  `pairSum u v / (rowNorm u · rowNorm v)`. The similarity of a pixel is zero plus its nine window terms, added in
  row-major order of the offsets, divided by nine twice; the result at `(b, s, c)` is `A (b, s, c)` times the
  similarity of the pixel of `s` (both halves share it).

  A program that keeps the 2 · 768 channels of a pixel in ONE row of 1536, channel `c` of half `e` at position
  `2c + e`, sums the same products in another grouping: `pairSum_of_interleaved`, from the split of a sum by
  the parity of the position. Addition alone is regrouped, so nothing is assumed finite.
-/
import Idealize.ShloMosaic.PureOps.Ideal
import Idealize.ShloMosaic.PureOps.Ideal.Laws
import Idealize.ShloMosaic.Lib.ValueIdx
import proofs.«165843_j36532991820508_1_alg».proof.Proof.LibEvenOdd

noncomputable section

namespace Cert.WindowCosine

open Idealize.ShloMosaic Idealize.ShloMosaic.ValueIdx

/-- The two rows of 768 channels that a pixel carries. -/
abbrev Rows := Fin 2 → Fin 768 → EReal

/-- An array of shape [8, 2048, 768] over the extended reals. -/
abbrev Arr := (⟨3, ![8, 2048, 768]⟩ : Shape).Idx → EReal

/-- The three float words both programs carry, read at the exact instance, and the padding value (the integer
    zero converted). The same word on both sides is never evaluated, except the zero the host's sums start from. -/
abbrev zeroW : EReal := Ideal.ofBits .f32 0x00000000#32
abbrev epsW : EReal := Ideal.ofBits .f32 0x322BCC77#32
abbrev nineW : EReal := Ideal.ofBits .f32 0x41100000#32
abbrev padVal : EReal := (((0#32 : BitVec 32).toInt : ℝ) : EReal)

/-- The sum over the channels of the products of the first rows, plus the same for the second rows. -/
def pairSum (u v : Rows) : EReal := (∑ c, u 0 c * v 0 c) + ∑ c, u 1 c * v 1 c

/-- The length of a pixel's 1536 channels, kept away from zero. -/
def rowNorm (u : Rows) : EReal := max (Ideal.sqrt (pairSum u u)) epsW

/-- The cosine of the angle between a pixel's channels and a window pixel's. -/
def cosTerm (u v : Rows) : EReal := Ideal.div (pairSum u v) (rowNorm u * rowNorm v)

/-- Zero plus the nine window terms in row-major order of the offsets, divided by nine twice. -/
def simOf (u : Rows) (v : Fin 3 → Fin 3 → Rows) : EReal :=
  Ideal.div (Ideal.div (zeroW + cosTerm u (v 0 0) + cosTerm u (v 0 1) + cosTerm u (v 0 2)
      + cosTerm u (v 1 0) + cosTerm u (v 1 1) + cosTerm u (v 1 2)
      + cosTerm u (v 2 0) + cosTerm u (v 2 1) + cosTerm u (v 2 2)) nineW) nineW

/-- The rows of pixel `(h, w)` of batch `b`: half `e` sits at sequence position `e · 1024 + h · 32 + w`. -/
def centre (A : Arr) (b : Fin 8) (h w : Fin 32) : Rows := fun e c =>
  A (ix3 b ⟨e.val * 1024 + h.val * 32 + w.val, by have := e.isLt; have := h.isLt; have := w.isLt; omega⟩ c)

/-- The rows of pixel `(h + i - 1, w + j - 1)` of the image with a border one pixel wide: the padding value on
    the border, the image's rows inside. -/
def window (A : Arr) (b : Fin 8) (h w : Fin 32) (i j : Fin 3) : Rows := fun e c =>
  if hh : (1 ≤ h.val + i.val ∧ h.val + i.val ≤ 32) ∧ (1 ≤ w.val + j.val ∧ w.val + j.val ≤ 32) then
    A (ix3 b ⟨e.val * 1024 + (h.val + i.val - 1) * 32 + (w.val + j.val - 1), by have := e.isLt; omega⟩ c)
  else padVal

/-- The image row and column of a sequence position (the same for both halves). -/
def rowOf (s : ℕ) : Fin 32 := ⟨s / 32 % 32, Nat.mod_lt _ (by norm_num)⟩
def colOf (s : ℕ) : Fin 32 := ⟨s % 32, Nat.mod_lt _ (by norm_num)⟩

/-- THE RESULT: each element times the similarity of its pixel. -/
def G (A : Arr) : Arr := fun y =>
  A y * simOf (centre A (y 0) (rowOf (y 1).val) (colOf (y 1).val)) (window A (y 0) (rowOf (y 1).val) (colOf (y 1).val))

/-- `G` at an index of batch `b` reads slab `b` of the array only: two arrays that agree on a slab each give the
    same value there. -/
theorem G_congr (A A' : Arr) (b b' : Fin 8)
    (h : ∀ (s : Fin 2048) (c : Fin 768), A (ix3 b s c) = A' (ix3 b' s c)) (s : Fin 2048) (c : Fin 768) :
    G A (ix3 b s c) = G A' (ix3 b' s c) := by
  have hc : ∀ hh ww, centre A b hh ww = centre A' b' hh ww := fun hh ww =>
    funext fun e => funext fun cc => h _ _
  have hw : ∀ hh ww, window A b hh ww = window A' b' hh ww := fun hh ww =>
    funext fun i => funext fun j => funext fun e => funext fun cc => by
      unfold window
      by_cases hin : (1 ≤ hh.val + i.val ∧ hh.val + i.val ≤ 32) ∧ (1 ≤ ww.val + j.val ∧ ww.val + j.val ≤ 32)
      · rw [dif_pos hin, dif_pos hin]; exact h _ _
      · rw [dif_neg hin, dif_neg hin]
  show A (ix3 b s c) * simOf (centre A b (rowOf s.val) (colOf s.val)) (window A b (rowOf s.val) (colOf s.val))
      = A' (ix3 b' s c) * simOf (centre A' b' (rowOf s.val) (colOf s.val)) (window A' b' (rowOf s.val) (colOf s.val))
  rw [h, hc, hw]

/-- ONE ROW OF 1536 INTERLEAVED CHANNELS against two rows of 768: when position `2c` of `U`, `V` holds channel `c`
    of the first rows and position `2c + 1` channel `c` of the second, the host's sum from zero of the 1536 products
    is `pairSum`. -/
theorem pairSum_of_interleaved (u v : Rows) (U V : Fin 1536 → EReal)
    (hU0 : ∀ c : Fin 768, U ⟨2 * c.val, by have := c.isLt; omega⟩ = u 0 c)
    (hU1 : ∀ c : Fin 768, U ⟨2 * c.val + 1, by have := c.isLt; omega⟩ = u 1 c)
    (hV0 : ∀ c : Fin 768, V ⟨2 * c.val, by have := c.isLt; omega⟩ = v 0 c)
    (hV1 : ∀ c : Fin 768, V ⟨2 * c.val + 1, by have := c.isLt; omega⟩ = v 1 c) :
    zeroW + ∑ k, U k * V k = pairSum u v := by
  show Ideal.ofBits .f32 0x00000000#32 + ∑ k, U k * V k = _
  rw [Ideal.ofBits_zero_f32, zero_add, Cert.Lib.EvenOdd.sum_fin_1536]
  unfold pairSum
  refine congrArg₂ (· + ·) (Finset.sum_congr rfl fun c _ => ?_) (Finset.sum_congr rfl fun c _ => ?_)
  · rw [hU0, hV0]
  · rw [hU1, hV1]

end Cert.WindowCosine

end
-- ==== Proof.KernelSim.lean ====
/-
  The kernel's similarity map at a pixel, at the exact instance.

  The body computes, for one batch's block, a [32, 32] map: zero, plus for each of the nine window offsets the
  quotient of the window's dot product by the product of the two lengths, the whole divided by nine twice. It does
  so in a few consecutive stretches, each adding two or three window terms to the running sum. Every arithmetic
  operation acts element by element, so at a pixel each stretch is the same arithmetic on numbers: the lane sums
  of the products at that pixel (`ls`), their square roots, maxima with eps and quotients. `wterm` is one window's
  term from the two halves `S0`, `S1`, the centre's length and the window's two halves `W0`, `W1`.

  The lane sums are sums over the 768 channels of products of the rows at the pixel (KernelReads), so with the
  rows of the pixel collected as the specification's `Rows` a window term is the specification's `cosTerm`, and the
  map at the pixel is its `simOf` (`sim_eq`).
-/
import proofs.«165843_j36532991820508_1_alg».proof.Proof.KernelReads
import proofs.«165843_j36532991820508_1_alg».proof.Proof.Spec

noncomputable section

namespace Cert.KernelIdeal.Sim

open Cert.KernelIdeal Cert.KernelIdeal.Gen Cert.KernelIdeal.Reads Cert.WindowCosine
open Idealize.ShloMosaic Idealize.ShloMosaic.ValueIdx

/-- The lane sum of a product of two images, as the body spells it. -/
abbrev ls (U V : FVec Ideal S32x32x768 .f32) : FVec Ideal S32x32 .f32 :=
  multiReduction .add [2] S32x32 (mulf U V) 0x00000000#32 reduces_S32x32x768_S32x32 (.inl rfl) rfl

/-- The length of the channels of two images at a pixel, kept away from zero. -/
def len (U0 U1 : FVec Ideal S32x32x768 .f32) (q : S32x32.Idx) : EReal :=
  max (Ideal.sqrt (ls U0 U0 q + ls U1 U1 q)) epsW

/-- One window's term at a pixel: the dot product of the halves with the window's halves over the centre's length
    times the window's. -/
def wterm (S0 S1 : FVec Ideal S32x32x768 .f32) (ncen : EReal) (W0 W1 : FVec Ideal S32x32x768 .f32) (q : S32x32.Idx) : EReal :=
  Ideal.div (ls S0 W0 q + ls S1 W1 q) (ncen * len W0 W1 q)

/-- The window of a bordered image at offsets `(i, j, 0)`. -/
abbrev wd (i j : ℕ) (hs : S34x34x768.Slices ![i, j, 0] S32x32x768) (V : FVec Ideal S34x34x768 .f32) : FVec Ideal S32x32x768 .f32 :=
  extractStridedSlice S32x32x768 ![i, j, 0] V hs

/-! ## The stretches of the body, at a pixel -/

theorem pay9_read (P : Vec Ideal S1x2048x768 .f32) (q : S32x32.Idx) : k0_pay9 P q = len (k0_pay5 P) (k0_pay6 P) q := rfl

/-- Zero, then the terms of offsets (0,0), (0,1), (0,2). -/
theorem pay15_read (P : Vec Ideal S1x2048x768 .f32) (q : S32x32.Idx) :
    k0_pay15 (k0_pay5 P) (k0_pay6 P) (k0_pay7 P) (k0_pay8 P) (k0_pay9 P) (k0_pay10 (F := Ideal)) (k0_pay13 P) (k0_pay14 P) q
      = zeroW
        + wterm (k0_pay5 P) (k0_pay6 P) (k0_pay9 P q) (wd 0 0 slices_S34x34x768_o0_0_0_S32x32x768 (k0_pay7 P)) (wd 0 0 slices_S34x34x768_o0_0_0_S32x32x768 (k0_pay8 P)) q
        + wterm (k0_pay5 P) (k0_pay6 P) (k0_pay9 P q) (wd 0 1 slices_S34x34x768_o0_1_0_S32x32x768 (k0_pay7 P)) (wd 0 1 slices_S34x34x768_o0_1_0_S32x32x768 (k0_pay8 P)) q
        + wterm (k0_pay5 P) (k0_pay6 P) (k0_pay9 P q) (wd 0 2 slices_S34x34x768_o0_2_0_S32x32x768 (k0_pay7 P)) (wd 0 2 slices_S34x34x768_o0_2_0_S32x32x768 (k0_pay8 P)) q := rfl

/-- A running sum, then the terms of offsets (1,0), (1,1). -/
theorem pay20_read (S0 S1 : FVec Ideal S32x32x768 .f32) (D0 D1 : FVec Ideal S34x34x768 .f32) (n acc : FVec Ideal S32x32 .f32) (q : S32x32.Idx) :
    k0_pay20 S0 S1 D0 D1 n acc (k0_pay16 D0) (k0_pay17 D1) (k0_pay18 S0 D0) (k0_pay19 S1 D1) q
      = acc q
        + wterm S0 S1 (n q) (wd 1 0 slices_S34x34x768_o1_0_0_S32x32x768 D0) (wd 1 0 slices_S34x34x768_o1_0_0_S32x32x768 D1) q
        + wterm S0 S1 (n q) (wd 1 1 slices_S34x34x768_o1_1_0_S32x32x768 D0) (wd 1 1 slices_S34x34x768_o1_1_0_S32x32x768 D1) q := rfl

/-- The term of offset (1,2). -/
theorem pay21_read (S0 S1 : FVec Ideal S32x32x768 .f32) (D0 D1 : FVec Ideal S34x34x768 .f32) (n : FVec Ideal S32x32 .f32) (q : S32x32.Idx) :
    k0_pay21 S0 S1 D0 D1 n q
      = wterm S0 S1 (n q) (wd 1 2 slices_S34x34x768_o1_2_0_S32x32x768 D0) (wd 1 2 slices_S34x34x768_o1_2_0_S32x32x768 D1) q := rfl

/-- A running sum and a term, then the terms of offsets (2,0), (2,1). -/
theorem pay22_read (S0 S1 : FVec Ideal S32x32x768 .f32) (D0 D1 : FVec Ideal S34x34x768 .f32) (n acc t : FVec Ideal S32x32 .f32) (q : S32x32.Idx) :
    k0_pay22 S0 S1 D0 D1 n acc t q
      = acc q + t q
        + wterm S0 S1 (n q) (wd 2 0 slices_S34x34x768_o2_0_0_S32x32x768 D0) (wd 2 0 slices_S34x34x768_o2_0_0_S32x32x768 D1) q
        + wterm S0 S1 (n q) (wd 2 1 slices_S34x34x768_o2_1_0_S32x32x768 D0) (wd 2 1 slices_S34x34x768_o2_1_0_S32x32x768 D1) q := rfl

/-- The last stretch: the running sum, the term of offset (2,2), and the two divisions by nine; the map then gets a
    trailing unit axis. -/
theorem pay1_read (S0 S1 : FVec Ideal S32x32x768 .f32) (D0 D1 : FVec Ideal S34x34x768 .f32) (n acc : FVec Ideal S32x32 .f32) (h w : Fin 32) :
    k0_pay1 n acc (k0_pay25 S0 S1 D0 D1) (k0_pay26 D0) (k0_pay27 D1) (ix3 h w (0 : Fin 1))
      = Ideal.div (Ideal.div (acc (ix2 h w)
          + wterm S0 S1 (n (ix2 h w)) (wd 2 2 slices_S34x34x768_o2_2_0_S32x32x768 D0) (wd 2 2 slices_S34x34x768_o2_2_0_S32x32x768 D1) (ix2 h w)) nineW) nineW := by
  unfold k0_pay1
  refine (shapeCast_apply _ shapeCasts_S32x32_S32x32x1 (ix3 h w (0 : Fin 1)) (ix2 h w) ?_).trans rfl
  rw [Shape.rowMajor_val_two, Shape.rowMajor_val_three]
  show h.val * 32 + w.val = (h.val * 32 + w.val) * 1 + 0
  omega

/-! ## From lane sums to rows -/

/-- The rows of a pixel of two images. -/
def rowsK (X0 X1 : FVec Ideal S32x32x768 .f32) (h w : Fin 32) : Rows := fun e c =>
  match e with
  | ⟨0, _⟩ => X0 (ix3 h w c)
  | ⟨1, _⟩ => X1 (ix3 h w c)

theorem ls_add_ls (X0 X1 Y0 Y1 : FVec Ideal S32x32x768 .f32) (h w : Fin 32) :
    ls X0 Y0 (ix2 h w) + ls X1 Y1 (ix2 h w) = pairSum (rowsK X0 X1 h w) (rowsK Y0 Y1 h w) := by
  show multiReduction .add [2] S32x32 (mulf X0 Y0) 0x00000000#32 reduces_S32x32x768_S32x32 (.inl rfl) rfl (ix2 h w)
      + multiReduction .add [2] S32x32 (mulf X1 Y1) 0x00000000#32 reduces_S32x32x768_S32x32 (.inl rfl) rfl (ix2 h w) = _
  rw [laneSum_read, laneSum_read]
  rfl

theorem len_eq (X0 X1 : FVec Ideal S32x32x768 .f32) (h w : Fin 32) :
    len X0 X1 (ix2 h w) = rowNorm (rowsK X0 X1 h w) := by
  unfold len rowNorm
  rw [ls_add_ls]

theorem wterm_eq (S0 S1 W0 W1 : FVec Ideal S32x32x768 .f32) (h w : Fin 32) :
    wterm S0 S1 (len S0 S1 (ix2 h w)) W0 W1 (ix2 h w) = cosTerm (rowsK S0 S1 h w) (rowsK W0 W1 h w) := by
  unfold wterm cosTerm
  rw [ls_add_ls, len_eq, len_eq]

/-! ## The map at a pixel -/

/-- The nine windows' rows at a pixel, by offset. -/
def winRows (P : Vec Ideal S1x2048x768 .f32) (h w : Fin 32) : Fin 3 → Fin 3 → Rows := fun i j =>
  match i, j with
  | ⟨0, _⟩, ⟨0, _⟩ => rowsK (wd 0 0 slices_S34x34x768_o0_0_0_S32x32x768 (k0_pay7 P)) (wd 0 0 slices_S34x34x768_o0_0_0_S32x32x768 (k0_pay8 P)) h w
  | ⟨0, _⟩, ⟨1, _⟩ => rowsK (wd 0 1 slices_S34x34x768_o0_1_0_S32x32x768 (k0_pay7 P)) (wd 0 1 slices_S34x34x768_o0_1_0_S32x32x768 (k0_pay8 P)) h w
  | ⟨0, _⟩, ⟨2, _⟩ => rowsK (wd 0 2 slices_S34x34x768_o0_2_0_S32x32x768 (k0_pay7 P)) (wd 0 2 slices_S34x34x768_o0_2_0_S32x32x768 (k0_pay8 P)) h w
  | ⟨1, _⟩, ⟨0, _⟩ => rowsK (wd 1 0 slices_S34x34x768_o1_0_0_S32x32x768 (k0_pay7 P)) (wd 1 0 slices_S34x34x768_o1_0_0_S32x32x768 (k0_pay8 P)) h w
  | ⟨1, _⟩, ⟨1, _⟩ => rowsK (wd 1 1 slices_S34x34x768_o1_1_0_S32x32x768 (k0_pay7 P)) (wd 1 1 slices_S34x34x768_o1_1_0_S32x32x768 (k0_pay8 P)) h w
  | ⟨1, _⟩, ⟨2, _⟩ => rowsK (wd 1 2 slices_S34x34x768_o1_2_0_S32x32x768 (k0_pay7 P)) (wd 1 2 slices_S34x34x768_o1_2_0_S32x32x768 (k0_pay8 P)) h w
  | ⟨2, _⟩, ⟨0, _⟩ => rowsK (wd 2 0 slices_S34x34x768_o2_0_0_S32x32x768 (k0_pay7 P)) (wd 2 0 slices_S34x34x768_o2_0_0_S32x32x768 (k0_pay8 P)) h w
  | ⟨2, _⟩, ⟨1, _⟩ => rowsK (wd 2 1 slices_S34x34x768_o2_1_0_S32x32x768 (k0_pay7 P)) (wd 2 1 slices_S34x34x768_o2_1_0_S32x32x768 (k0_pay8 P)) h w
  | ⟨2, _⟩, ⟨2, _⟩ => rowsK (wd 2 2 slices_S34x34x768_o2_2_0_S32x32x768 (k0_pay7 P)) (wd 2 2 slices_S34x34x768_o2_2_0_S32x32x768 (k0_pay8 P)) h w

/-- The body's similarity map, with its trailing unit axis, as the body's stretches nest. -/
abbrev simVec (P : Vec Ideal S1x2048x768 .f32) : FVec Ideal S32x32x1 .f32 :=
  k0_pay1 (k0_pay9 P)
    (k0_pay22 (k0_pay5 P) (k0_pay6 P) (k0_pay7 P) (k0_pay8 P) (k0_pay9 P)
      (k0_pay20 (k0_pay5 P) (k0_pay6 P) (k0_pay7 P) (k0_pay8 P) (k0_pay9 P)
        (k0_pay15 (k0_pay5 P) (k0_pay6 P) (k0_pay7 P) (k0_pay8 P) (k0_pay9 P) (k0_pay10 (F := Ideal)) (k0_pay13 P) (k0_pay14 P))
        (k0_pay16 (k0_pay7 P)) (k0_pay17 (k0_pay8 P)) (k0_pay18 (k0_pay5 P) (k0_pay7 P)) (k0_pay19 (k0_pay6 P) (k0_pay8 P)))
      (k0_pay21 (k0_pay5 P) (k0_pay6 P) (k0_pay7 P) (k0_pay8 P) (k0_pay9 P)))
    (k0_pay25 (k0_pay5 P) (k0_pay6 P) (k0_pay7 P) (k0_pay8 P)) (k0_pay26 (k0_pay7 P)) (k0_pay27 (k0_pay8 P))

/-- THE MAP AT A PIXEL is the specification's similarity of the pixel's rows and its nine windows' rows. -/
theorem sim_eq (P : Vec Ideal S1x2048x768 .f32) (h w : Fin 32) :
    simVec P (ix3 h w (0 : Fin 1)) = simOf (rowsK (k0_pay5 P) (k0_pay6 P) h w) (winRows P h w) := by
  unfold simVec
  rw [pay1_read, pay22_read, pay20_read, pay21_read, pay15_read, pay9_read]
  simp only [wterm_eq]
  rfl

end Cert.KernelIdeal.Sim

end
-- ==== Proof.KernelBlock.lean ====
/-
  From one batch's block to the whole result array of the kernel.

  At grid point `t` the body sees block `P` of the argument, batch `t`'s [1, 2048, 768] slab, and stores two pieces:
  the first 1024 sequence positions hold the first half times the similarity map, the last 1024 the second half
  times the same map. Read at an index `(0, s, c)`, either piece is `P (0, s, c)` times the map at the pixel of `s`
  (`piece0`, `piece1`), so the buffer the body leaves is ONE function of the block (`blockOut`, `canon_eq`), and
  with the block's rows identified with the specification's rows of the slab (`centre_rows`, `window_rows`) it is
  the specification `G` of the slab (`blockOut_eq`).

  Point `t`'s block of an array is the slab at batch `t`: the index map sends `t` to block `(t, 0, 0)`, decided over
  the eight points. `G` at batch `t` reads only that slab, so what point `t` writes back is block `t` of `G` of the
  whole argument (`flushed_eq`); every index lies in the block of its own batch (`cover`); so the result array
  ends holding `G` of the argument (`final`, `run`).
-/
import proofs.«165843_j36532991820508_1_alg».proof.Proof.KernelSim
import proofs.«165843_j36532991820508_1_alg».proof.Proof.Gen.KernelIdeal.Frame
import Idealize.ShloMosaic.Lib.Pipeline.Value

noncomputable section

namespace Cert.KernelIdeal.Block

open Cert.KernelIdeal Cert.KernelIdeal.Gen Cert.KernelIdeal.Reads Cert.KernelIdeal.Sim Cert.WindowCosine
open Idealize.ShloMosaic Idealize.ShloMosaic.ValueIdx Idealize.ShloMosaic.TcCoe Idealize.SL.Sem
open Idealize.ShloMosaic.Pipeline (Dat)

/-! ## The block's rows are the specification's rows of the slab -/

/-- A block as an array that holds it in every batch. -/
def Aof (P : Vec Ideal S1x2048x768 .f32) : Arr := fun y =>
  P (ix3 (0 : Fin 1) (⟨(y 1).val, (y 1).isLt⟩ : Fin 2048) (⟨(y 2).val, (y 2).isLt⟩ : Fin 768))

theorem Aof_apply (P : Vec Ideal S1x2048x768 .f32) (b : Fin 8) (s : Fin 2048) (c : Fin 768) :
    Aof P (ix3 b s c) = P (ix3 (0 : Fin 1) s c) := rfl

/-- The two halves at a pixel are the specification's rows of the pixel. -/
theorem centre_rows (P : Vec Ideal S1x2048x768 .f32) (b : Fin 8) (h w : Fin 32) :
    rowsK (k0_pay5 P) (k0_pay6 P) h w = centre (Aof P) b h w := by
  have hh := h.isLt; have hw := w.isLt
  funext e c
  match e with
  | ⟨0, _⟩ =>
    show k0_pay5 P (ix3 h w c) = Aof P (ix3 b (⟨0 * 1024 + h.val * 32 + w.val, by omega⟩ : Fin 2048) c)
    exact (half0_read P h w c).trans (congrArg (fun s => P (ix3 (0 : Fin 1) s c))
      (Fin.ext (by show h.val * 32 + w.val = 0 * 1024 + h.val * 32 + w.val; omega)))
  | ⟨1, _⟩ =>
    show k0_pay6 P (ix3 h w c) = Aof P (ix3 b (⟨1 * 1024 + h.val * 32 + w.val, by omega⟩ : Fin 2048) c)
    exact (half1_read P h w c).trans (congrArg (fun s => P (ix3 (0 : Fin 1) s c))
      (Fin.ext (by show 1024 + h.val * 32 + w.val = 1 * 1024 + h.val * 32 + w.val; omega)))

/-- A window of a bordered half at a pixel is the specification's window row: inside the border the half one pixel
    up and to the left, on it the padding value. -/
theorem window_row (P : Vec Ideal S1x2048x768 .f32) (b : Fin 8) (h w : Fin 32) (i j : Fin 3)
    (hs : S34x34x768.Slices ![i.val, j.val, 0] S32x32x768) (e : Fin 2) (X : FVec Ideal S32x32x768 .f32)
    (hX : ∀ (h' w' : Fin 32) (c : Fin 768),
      X (ix3 h' w' c) = P (ix3 (0 : Fin 1) (⟨e.val * 1024 + h'.val * 32 + w'.val, by have := e.isLt; have := h'.isLt; have := w'.isLt; omega⟩ : Fin 2048) c))
    (c : Fin 768) :
    wd i.val j.val hs (bordered X (Scalar.sitofp (F := Ideal) .f32 (0#32 : BitVec 32))) (ix3 h w c) = window (Aof P) b h w i j e c := by
  have hh := h.isLt; have hw := w.isLt; have hi := i.isLt; have hj := j.isLt; have he := e.isLt
  refine (slice_read i.val j.val (by omega) (by omega) _ hs h w c).trans ?_
  unfold window
  by_cases hin : (1 ≤ h.val + i.val ∧ h.val + i.val ≤ 32) ∧ (1 ≤ w.val + j.val ∧ w.val + j.val ≤ 32)
  · rw [dif_pos hin, bordered_in _ _ _ _ c hin.1 hin.2, hX, Aof_apply]
  · rw [dif_neg hin, bordered_out _ _ _ _ c hin]
    rfl

/-- The nine windows' rows at a pixel are the specification's. -/
theorem window_rows (P : Vec Ideal S1x2048x768 .f32) (b : Fin 8) (h w : Fin 32) :
    winRows P h w = window (Aof P) b h w := by
  have h0 : ∀ (h' w' : Fin 32) (c : Fin 768), k0_pay5 P (ix3 h' w' c)
      = P (ix3 (0 : Fin 1) (⟨(0 : Fin 2).val * 1024 + h'.val * 32 + w'.val, by have := h'.isLt; have := w'.isLt; show 0 * 1024 + h'.val * 32 + w'.val < 2048; omega⟩ : Fin 2048) c) := fun h' w' c => by
    exact (half0_read P h' w' c).trans (congrArg (fun s => P (ix3 (0 : Fin 1) s c))
      (Fin.ext (by show h'.val * 32 + w'.val = 0 * 1024 + h'.val * 32 + w'.val; omega)))
  have h1 : ∀ (h' w' : Fin 32) (c : Fin 768), k0_pay6 P (ix3 h' w' c)
      = P (ix3 (0 : Fin 1) (⟨(1 : Fin 2).val * 1024 + h'.val * 32 + w'.val, by have := h'.isLt; have := w'.isLt; show 1 * 1024 + h'.val * 32 + w'.val < 2048; omega⟩ : Fin 2048) c) := fun h' w' c => by
    exact (half1_read P h' w' c).trans (congrArg (fun s => P (ix3 (0 : Fin 1) s c))
      (Fin.ext (by show 1024 + h'.val * 32 + w'.val = 1 * 1024 + h'.val * 32 + w'.val; omega)))
  have key : ∀ (i j : Fin 3) (hs : S34x34x768.Slices ![i.val, j.val, 0] S32x32x768),
      rowsK (wd i.val j.val hs (k0_pay7 P)) (wd i.val j.val hs (k0_pay8 P)) h w = window (Aof P) b h w i j := fun i j hs => by
    funext e c
    match e with
    | ⟨0, _⟩ =>
      show wd i.val j.val hs (k0_pay7 P) (ix3 h w c) = _
      rw [pay7_eq]
      exact window_row P b h w i j hs 0 (k0_pay5 P) h0 c
    | ⟨1, _⟩ =>
      show wd i.val j.val hs (k0_pay8 P) (ix3 h w c) = _
      rw [pay8_eq]
      exact window_row P b h w i j hs 1 (k0_pay6 P) h1 c
  funext i j
  match i, j with
  | ⟨0, _⟩, ⟨0, _⟩ => exact key 0 0 slices_S34x34x768_o0_0_0_S32x32x768
  | ⟨0, _⟩, ⟨1, _⟩ => exact key 0 1 slices_S34x34x768_o0_1_0_S32x32x768
  | ⟨0, _⟩, ⟨2, _⟩ => exact key 0 2 slices_S34x34x768_o0_2_0_S32x32x768
  | ⟨1, _⟩, ⟨0, _⟩ => exact key 1 0 slices_S34x34x768_o1_0_0_S32x32x768
  | ⟨1, _⟩, ⟨1, _⟩ => exact key 1 1 slices_S34x34x768_o1_1_0_S32x32x768
  | ⟨1, _⟩, ⟨2, _⟩ => exact key 1 2 slices_S34x34x768_o1_2_0_S32x32x768
  | ⟨2, _⟩, ⟨0, _⟩ => exact key 2 0 slices_S34x34x768_o2_0_0_S32x32x768
  | ⟨2, _⟩, ⟨1, _⟩ => exact key 2 1 slices_S34x34x768_o2_1_0_S32x32x768
  | ⟨2, _⟩, ⟨2, _⟩ => exact key 2 2 slices_S34x34x768_o2_2_0_S32x32x768

/-! ## What the body leaves in the output buffer -/

/-- The buffer the body leaves, as one function of the block: each element times the similarity of its pixel. -/
def blockOut (P : Vec Ideal S1x2048x768 .f32) : Vec Ideal S1x2048x768 .f32 := fun y =>
  P y * simOf (rowsK (k0_pay5 P) (k0_pay6 P) (rowOf (y 1).val) (colOf (y 1).val)) (winRows P (rowOf (y 1).val) (colOf (y 1).val))

/-- It is the specification of the slab, in any batch. -/
theorem blockOut_eq (P : Vec Ideal S1x2048x768 .f32) (b : Fin 8) (y0 : Fin 1) (s : Fin 2048) (c : Fin 768) :
    blockOut P (ix3 y0 s c) = G (Aof P) (ix3 b s c) := by
  have hy0 : y0 = 0 := Subsingleton.elim _ _
  subst hy0
  show P (ix3 (0 : Fin 1) s c) * simOf (rowsK (k0_pay5 P) (k0_pay6 P) (rowOf s.val) (colOf s.val)) (winRows P (rowOf s.val) (colOf s.val))
      = Aof P (ix3 b s c) * simOf (centre (Aof P) b (rowOf s.val) (colOf s.val)) (window (Aof P) b (rowOf s.val) (colOf s.val))
  rw [centre_rows P b, window_rows P b, Aof_apply]

/-- A product of a half with the broadcast map, re-laid as 1024 sequence positions, at an index. -/
theorem relaid_read (X : FVec Ideal S32x32x768 .f32) (M : FVec Ideal S32x32x1 .f32) (x0 : Fin 1) (x1 : Fin 1024) (c : Fin 768) :
    shapeCast S1x1024x768 (shapeCast S1024x768 (mulf X (broadcastTo S32x32x768 M broadcasts_S32x32x1_S32x32x768))
        shapeCasts_S32x32x768_S1024x768) shapeCasts_S1024x768_S1x1024x768 (ix3 x0 x1 c)
      = X (ix3 (⟨x1.val / 32, by have := x1.isLt; omega⟩ : Fin 32) (⟨x1.val % 32, Nat.mod_lt _ (by norm_num)⟩ : Fin 32) c)
        * M (ix3 (⟨x1.val / 32, by have := x1.isLt; omega⟩ : Fin 32) (⟨x1.val % 32, Nat.mod_lt _ (by norm_num)⟩ : Fin 32) (0 : Fin 1)) := by
  have h1 := x1.isLt; have h0 := x0.isLt
  refine (shapeCast_apply _ shapeCasts_S1024x768_S1x1024x768 (ix3 x0 x1 c) (ix2 x1 c) ?_).trans ?_
  · rw [Shape.rowMajor_val_two, Shape.rowMajor_val_three]
    show x1.val * 768 + c.val = (x0.val * 1024 + x1.val) * 768 + c.val
    omega
  refine (shapeCast_apply _ shapeCasts_S32x32x768_S1024x768 (ix2 x1 c)
    (ix3 (⟨x1.val / 32, by omega⟩ : Fin 32) (⟨x1.val % 32, Nat.mod_lt _ (by norm_num)⟩ : Fin 32) c) ?_).trans ?_
  · rw [Shape.rowMajor_val_three, Shape.rowMajor_val_two]
    show (x1.val / 32 * 32 + x1.val % 32) * 768 + c.val = x1.val * 768 + c.val
    omega
  refine congrArg (X _ * ·) ?_
  exact broadcastTo_apply M broadcasts_S32x32x1_S32x32x768 _ _ (fun a => by
    match a with
    | ⟨0, _⟩ => rfl
    | ⟨1, _⟩ => rfl
    | ⟨2, _⟩ => rfl)

/-- The piece stored over the first 1024 sequence positions. -/
theorem piece0 (P : Vec Ideal S1x2048x768 .f32) (x : S1x1024x768.Idx) :
    k0_pay2 (k0_pay5 P) (k0_pay9 P)
      (k0_pay22 (k0_pay5 P) (k0_pay6 P) (k0_pay7 P) (k0_pay8 P) (k0_pay9 P)
        (k0_pay20 (k0_pay5 P) (k0_pay6 P) (k0_pay7 P) (k0_pay8 P) (k0_pay9 P)
          (k0_pay15 (k0_pay5 P) (k0_pay6 P) (k0_pay7 P) (k0_pay8 P) (k0_pay9 P) (k0_pay10 (F := Ideal)) (k0_pay13 P) (k0_pay14 P))
          (k0_pay16 (k0_pay7 P)) (k0_pay17 (k0_pay8 P)) (k0_pay18 (k0_pay5 P) (k0_pay7 P)) (k0_pay19 (k0_pay6 P) (k0_pay8 P)))
        (k0_pay21 (k0_pay5 P) (k0_pay6 P) (k0_pay7 P) (k0_pay8 P) (k0_pay9 P)))
      (k0_pay25 (k0_pay5 P) (k0_pay6 P) (k0_pay7 P) (k0_pay8 P)) (k0_pay26 (k0_pay7 P)) (k0_pay27 (k0_pay8 P)) x
      = blockOut P (r0_1.emb x) := by
  obtain ⟨x0, x1, c, rfl⟩ : ∃ (x0 : Fin 1) (x1 : Fin 1024) (c : Fin 768), x = ix3 x0 x1 c := ⟨x 0, x 1, x 2, eq_ix3 x⟩
  have h1 := x1.isLt
  show shapeCast S1x1024x768 (shapeCast S1024x768 (mulf (k0_pay5 P) (broadcastTo S32x32x768 (simVec P) broadcasts_S32x32x1_S32x32x768))
        shapeCasts_S32x32x768_S1024x768) shapeCasts_S1024x768_S1x1024x768 (ix3 x0 x1 c) = _
  rw [relaid_read, sim_eq, half0_read]
  have e : r0_1.emb (ix3 x0 x1 c) = ix3 (0 : Fin 1) (⟨x1.val / 32 * 32 + x1.val % 32, by omega⟩ : Fin 2048) c :=
    funext fun a => Fin.ext (by
      match a with
      | ⟨0, _⟩ => show 0 + 1 * x0.val = 0; have := x0.isLt; omega
      | ⟨1, _⟩ => show 0 + 1 * x1.val = x1.val / 32 * 32 + x1.val % 32; omega
      | ⟨2, _⟩ => show 0 + 1 * c.val = c.val; omega)
  rw [e]
  have er : rowOf (x1.val / 32 * 32 + x1.val % 32) = (⟨x1.val / 32, by omega⟩ : Fin 32) := Fin.ext (by show (x1.val / 32 * 32 + x1.val % 32) / 32 % 32 = x1.val / 32; omega)
  have ec : colOf (x1.val / 32 * 32 + x1.val % 32) = (⟨x1.val % 32, Nat.mod_lt _ (by norm_num)⟩ : Fin 32) := Fin.ext (by show (x1.val / 32 * 32 + x1.val % 32) % 32 = x1.val % 32; omega)
  show _ = P (ix3 (0 : Fin 1) (⟨x1.val / 32 * 32 + x1.val % 32, by omega⟩ : Fin 2048) c)
      * simOf (rowsK (k0_pay5 P) (k0_pay6 P) (rowOf (x1.val / 32 * 32 + x1.val % 32)) (colOf (x1.val / 32 * 32 + x1.val % 32)))
          (winRows P (rowOf (x1.val / 32 * 32 + x1.val % 32)) (colOf (x1.val / 32 * 32 + x1.val % 32)))
  rw [er, ec]

/-- The piece stored over the last 1024 sequence positions. -/
theorem piece1 (P : Vec Ideal S1x2048x768 .f32) (x : S1x1024x768.Idx) :
    k0_pay3 (k0_pay6 P) (k0_pay9 P)
      (k0_pay22 (k0_pay5 P) (k0_pay6 P) (k0_pay7 P) (k0_pay8 P) (k0_pay9 P)
        (k0_pay20 (k0_pay5 P) (k0_pay6 P) (k0_pay7 P) (k0_pay8 P) (k0_pay9 P)
          (k0_pay15 (k0_pay5 P) (k0_pay6 P) (k0_pay7 P) (k0_pay8 P) (k0_pay9 P) (k0_pay10 (F := Ideal)) (k0_pay13 P) (k0_pay14 P))
          (k0_pay16 (k0_pay7 P)) (k0_pay17 (k0_pay8 P)) (k0_pay18 (k0_pay5 P) (k0_pay7 P)) (k0_pay19 (k0_pay6 P) (k0_pay8 P)))
        (k0_pay21 (k0_pay5 P) (k0_pay6 P) (k0_pay7 P) (k0_pay8 P) (k0_pay9 P)))
      (k0_pay25 (k0_pay5 P) (k0_pay6 P) (k0_pay7 P) (k0_pay8 P)) (k0_pay26 (k0_pay7 P)) (k0_pay27 (k0_pay8 P)) x
      = blockOut P (r0_2.emb x) := by
  obtain ⟨x0, x1, c, rfl⟩ : ∃ (x0 : Fin 1) (x1 : Fin 1024) (c : Fin 768), x = ix3 x0 x1 c := ⟨x 0, x 1, x 2, eq_ix3 x⟩
  have h1 := x1.isLt
  show shapeCast S1x1024x768 (shapeCast S1024x768 (mulf (k0_pay6 P) (broadcastTo S32x32x768 (simVec P) broadcasts_S32x32x1_S32x32x768))
        shapeCasts_S32x32x768_S1024x768) shapeCasts_S1024x768_S1x1024x768 (ix3 x0 x1 c) = _
  rw [relaid_read, sim_eq, half1_read]
  have e : r0_2.emb (ix3 x0 x1 c) = ix3 (0 : Fin 1) (⟨1024 + x1.val / 32 * 32 + x1.val % 32, by omega⟩ : Fin 2048) c :=
    funext fun a => Fin.ext (by
      match a with
      | ⟨0, _⟩ => show 0 + 1 * x0.val = 0; have := x0.isLt; omega
      | ⟨1, _⟩ => show 1024 + 1 * x1.val = 1024 + x1.val / 32 * 32 + x1.val % 32; omega
      | ⟨2, _⟩ => show 0 + 1 * c.val = c.val; omega)
  rw [e]
  have er : rowOf (1024 + x1.val / 32 * 32 + x1.val % 32) = (⟨x1.val / 32, by omega⟩ : Fin 32) := Fin.ext (by show (1024 + x1.val / 32 * 32 + x1.val % 32) / 32 % 32 = x1.val / 32; omega)
  have ec : colOf (1024 + x1.val / 32 * 32 + x1.val % 32) = (⟨x1.val % 32, Nat.mod_lt _ (by norm_num)⟩ : Fin 32) := Fin.ext (by show (1024 + x1.val / 32 * 32 + x1.val % 32) % 32 = x1.val % 32; omega)
  show _ = P (ix3 (0 : Fin 1) (⟨1024 + x1.val / 32 * 32 + x1.val % 32, by omega⟩ : Fin 2048) c)
      * simOf (rowsK (k0_pay5 P) (k0_pay6 P) (rowOf (1024 + x1.val / 32 * 32 + x1.val % 32)) (colOf (1024 + x1.val / 32 * 32 + x1.val % 32)))
          (winRows P (rowOf (1024 + x1.val / 32 * 32 + x1.val % 32)) (colOf (1024 + x1.val / 32 * 32 + x1.val % 32)))
  rw [er, ec]

theorem hz : (![0, 0, 0] : Fin 3 → Nat) = fun _ => 0 := funext fun a => by fin_cases a <;> rfl

/-- THE BUFFER THE BODY LEAVES is `blockOut` of the block: each of the two pieces is, and they cover the buffer. -/
theorem out_eq (P : Vec Ideal S1x2048x768 .f32) : out0_1 (F := Ideal) P = blockOut P := by
  funext y
  unfold out0_1
  simp only [View.ld_unit_zero (S := S1x2048x768) hz]
  refine View.canon_apply_of_pieces (blockOut P) _ ?_ y (cover0_1 _ _ y)
  intro pc hpc
  rcases List.mem_cons.mp hpc with rfl | hpc
  · exact fun x => piece1 P x
  rcases List.mem_cons.mp hpc with rfl | hpc
  · exact fun x => piece0 P x
  nomatch hpc

end Cert.KernelIdeal.Block

end
-- ==== Proof.KernelRun.lean ====
/-
  The kernel's run: the result array ends holding the specification `G` of the argument array.

  The grid has eight points, one per batch; the index maps of both windows send point `t` to block `(t, 0, 0)`
  (decided over the eight points), and a block's coordinate is the block index times the block's extent plus
  the coordinate inside the block, so point `t`'s block of an array [8, 2048, 768] is its slab at batch `t`.
  The body leaves `G` of the slab it read (KernelBlock), and `G` at batch `t` reads that slab only, so what point
  `t` writes back is block `t` of `G` of the whole argument. Every index lies in the block of its own batch, so
  after the run the result array is `G` of the argument, which the run leaves as it found it.
-/
import proofs.«165843_j36532991820508_1_alg».proof.Proof.KernelBlock

noncomputable section

namespace Cert.KernelIdeal.RunValue

open Cert.KernelIdeal Cert.KernelIdeal.Gen Cert.KernelIdeal.Block Cert.WindowCosine
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- Both windows' index maps send point `t` to block `(t, 0, 0)`: decided over the eight points. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The batch a grid point works on: the point's own number (there are eight points). -/
def batchOf (t : Fin cfg0.N) : Fin 8 := ⟨t.val, by have h := t.isLt; have hN : grid0.N = 8 := N_0; show t.val < 8; exact hN ▸ h⟩

theorem batchOf_val (t : Fin cfg0.N) : (batchOf t).val = t.val := rfl

/-- The argument array as the region finds it. -/
abbrev argArr (c : Dev nD) : Arr := (V m c main_arg0 : S8x2048x768.Idx → EReal)

/-- Point `t`'s input block is the argument's slab at batch `t`. -/
theorem iblk_apply (c : Dev nD) (t : Fin cfg0.N) (s : Fin 2048) (ch : Fin 768) :
    iblk m c 0 t (ix3 (0 : Fin 1) s ch) = argArr m c (ix3 (batchOf t) s ch) := by
  obtain ⟨e0, e1, e2, -, -, -⟩ := idx_facts t
  show V m c main_arg0 (((cfg0.win 0).blk t).view.emb (ix3 (0 : Fin 1) s ch)) = _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 2048 + 1 * s.val = s.val; omega
  | ⟨2, _⟩ => show win0_0.index t (2 : Fin 3) * 768 + 1 * ch.val = ch.val; omega

/-- WHAT POINT `t` WRITES BACK is block `t` of `G` of the argument array. -/
theorem flushed_eq (c : Dev nD) (t : Fin cfg0.N) :
    (dats m 0 c).flushed 1 t = ((cfg0.win 1).blk t).view.read (Elt Ideal) (G (argArr m c)) := by
  show (cfg0.win 1).cut (grid0.coords t) ((dats m 0 c).after 1 t) = _
  rw [after0_1, out_eq]
  obtain ⟨-, -, -, e3, e4, e5⟩ := idx_facts t
  funext j
  show blockOut (iblk m c 0 t) j = G (argArr m c) (((cfg0.win 1).blk t).view.emb j)
  have hj0 : (j 0).val < 1 := (j 0).isLt
  have hj1 : (j 1).val < 2048 := (j 1).isLt
  have hj2 : (j 2).val < 768 := (j 2).isLt
  have ej : j = ix3 (⟨(j 0).val, hj0⟩ : Fin 1) (⟨(j 1).val, hj1⟩ : Fin 2048) (⟨(j 2).val, hj2⟩ : Fin 768) :=
    funext fun a => by match a with | ⟨0, _⟩ => rfl | ⟨1, _⟩ => rfl | ⟨2, _⟩ => rfl
  have eemb : ((cfg0.win 1).blk t).view.emb j
      = ix3 (batchOf t) (⟨(j 1).val, hj1⟩ : Fin 2048) (⟨(j 2).val, hj2⟩ : Fin 768) :=
    funext fun a => Fin.ext (by
      match a with
      | ⟨0, _⟩ => show win0_1.index t (0 : Fin 3) * 1 + 1 * (j 0).val = t.val; omega
      | ⟨1, _⟩ => show win0_1.index t (1 : Fin 3) * 2048 + 1 * (j 1).val = (j 1).val; omega
      | ⟨2, _⟩ => show win0_1.index t (2 : Fin 3) * 768 + 1 * (j 2).val = (j 2).val; omega)
  rw [eemb]
  refine (congrArg (blockOut (iblk m c 0 t)) ej).trans ?_
  rw [blockOut_eq (iblk m c 0 t) (batchOf t)]
  exact G_congr _ _ _ _ (fun s ch => (Aof_apply _ _ s ch).trans (iblk_apply m c t s ch)) _ _

/-- An index of the array is in point `t`'s block iff each coordinate is in the block's range on its axis. -/
theorem mem_blk (t : Fin cfg0.N) (i : S8x2048x768.Idx) :
    i ∈ ((cfg0.win 1).blk t).view.set ↔ ∀ a : Fin 3, win0_1.index t a * S1x2048x768.size a ≤ (i a).val
      ∧ (i a).val < win0_1.index t a * S1x2048x768.size a + S1x2048x768.size a := by
  show i ∈ ((View.whole main_v0).slice (win0_1.rect t)).set ↔ _
  rw [View.set_slice_whole, Rect.mem_set_unit]
  exact Iff.rfl

/-- Every index lies in the block of its own batch. -/
theorem cover (i : S8x2048x768.Idx) :
    ∃ t : Fin cfg0.N, (cfg0.win 1).flush t = true ∧ i ∈ ((cfg0.win 1).blk t).view.set := by
  have hi0 : (i 0).val < 8 := (i 0).isLt
  have hi1 : (i 1).val < 2048 := (i 1).isLt
  have hi2 : (i 2).val < 768 := (i 2).isLt
  have hN : grid0.N = 8 := N_0
  have hlt : (i 0).val < cfg0.N := by show (i 0).val < grid0.N; rw [hN]; exact hi0
  refine ⟨⟨(i 0).val, hlt⟩, flush0_1 _, ?_⟩
  obtain ⟨-, -, -, e3, e4, e5⟩ := idx_facts ⟨(i 0).val, hlt⟩
  rw [mem_blk]
  intro a
  match a with
  | ⟨0, _⟩ =>
    show win0_1.index ⟨(i 0).val, _⟩ (0 : Fin 3) * 1 ≤ (i 0).val ∧ (i 0).val < win0_1.index ⟨(i 0).val, _⟩ (0 : Fin 3) * 1 + 1
    have e3' : win0_1.index ⟨(i 0).val, hlt⟩ (0 : Fin 3) = (i 0).val := e3
    omega
  | ⟨1, _⟩ =>
    show win0_1.index ⟨(i 0).val, _⟩ (1 : Fin 3) * 2048 ≤ (i 1).val ∧ (i 1).val < win0_1.index ⟨(i 0).val, _⟩ (1 : Fin 3) * 2048 + 2048
    omega
  | ⟨2, _⟩ =>
    show win0_1.index ⟨(i 0).val, _⟩ (2 : Fin 3) * 768 ≤ (i 2).val ∧ (i 2).val < win0_1.index ⟨(i 0).val, _⟩ (2 : Fin 3) * 768 + 768
    omega

/-- THE RESULT ARRAY after the run is `G` of the argument array. -/
theorem final (c : Dev nD) : (dats m 0 c).arrAt 1 cfg0.N = G (argArr m c) :=
  (dats m 0 c).arrAt_eq_of_cover 1 (G (argArr m c)) (fun t _ => flushed_eq m c t) cover

/-- THE RUN: every weakly fair execution terminates with the result array at `G` of the argument array and the
    argument array as it was. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.RunValue

end
-- ==== Proof.RefReads.lean ====
/-
  The reference's feature map, its bordered copy and its nine windows, read at an index.

  The argument `A` has shape [8, 2048, 768]: batch `b`, sequence position `s`, channel `c`. The reference transposes
  it to [8, 768, 2048] and reshapes that row-major to the feature map [8, 1536, 32, 32]. Row-major position
  `((b · 1536 + k) · 32 + h) · 32 + w` is position `((b · 768 + c) · 2048 + s)` with `c = k / 2` and
  `s = (k % 2) · 1024 + h · 32 + w`, so plane `k = 2c + e` of the feature map at pixel `(h, w)` is
  `A (b, e · 1024 + h · 32 + w, c)`: channel `c` of half `e` of the pixel (`fm_read`).

  The feature map is bordered by one pixel of the padding value on the two image axes, giving [8, 1536, 34, 34]:
  at `(b, k, a, d)` it is the feature map at `(b, k, a - 1, d - 1)` when `1 ≤ a, d ≤ 32` and the padding value
  elsewhere (`pad_inside`, `pad_outside`, `padded_read`). The window of offset `(i, j)` is the [8, 1536, 32, 32]
  slice of the bordered array at offsets `(0, 0, i, j)`: at `(b, k, h, w)` it is the bordered array at
  `(b, k, h + i, w + j)` (`slice_read`). Together: plane `2c + e` of the window `(i, j)` at pixel `(h, w)` is
  the specification's `window A b h w i j` at `(e, c)` (`win_read`, and its nine instances).
-/
import proofs.«165843_j36532991820508_1_alg».proof.Proof.Gen.ReferenceIdeal.Read
import proofs.«165843_j36532991820508_1_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.WindowCosine
  Idealize.ShloMosaic Idealize.ShloMosaic.ValueIdx

/-- The argument array at the exact instance. -/
abbrev Arg := (⟨S8x2048x768, .f32⟩ : BufTy).Contents (Elt Ideal)

/-- The plane of the 1536 axis that holds channel `c` of half `e`. -/
abbrev plane (c : Fin 768) (e : Fin 2) : Fin 1536 :=
  ⟨2 * c.val + e.val, by have := c.isLt; have := e.isLt; omega⟩

/-! ## The feature map -/

/-- Plane `2c + e` of the feature map at pixel `(h, w)` is channel `c` of half `e` of that pixel. -/
theorem fm_read (A : Arg) (b : Fin 8) (c : Fin 768) (e : Fin 2) (h w : Fin 32) :
    val_main_v1 (F := Ideal) A (ix4 b (plane c e) h w) = centre A b h w e c := by
  have hb := b.isLt; have hc := c.isLt; have he := e.isLt; have hh := h.isLt; have hw := w.isLt
  refine (val_main_v1_apply (F := Ideal) A _).trans ?_
  refine (val_main_v0_apply (F := Ideal) A _).trans ?_
  show A _ = A _
  refine congrArg A (funext fun a => Fin.ext ?_)
  match a with
  | ⟨0, _⟩ =>
    show (((b.val * 1536 + (2 * c.val + e.val)) * 32 + h.val) * 32 + w.val) / 1572864 = b.val
    omega
  | ⟨1, _⟩ =>
    show (((b.val * 1536 + (2 * c.val + e.val)) * 32 + h.val) * 32 + w.val) % 2048
      = e.val * 1024 + h.val * 32 + w.val
    omega
  | ⟨2, _⟩ =>
    show (((b.val * 1536 + (2 * c.val + e.val)) * 32 + h.val) * 32 + w.val) / 2048 % 768 = c.val
    omega

/-! ## The border -/

/-- Inside the image the bordered array is the operand one pixel up and to the left. -/
theorem pad_inside (X : FVec Ideal S8x1536x32x32 .f32) (v : FVec Ideal S_ .f32) (b : Fin 8) (k : Fin 1536)
    (a d : ℕ) (ha : 1 ≤ a ∧ a ≤ 32) (hd : 1 ≤ d ∧ d ≤ 32) :
    pad S8x1536x34x34 ![0, 0, 1, 1] ![0, 0, 1, 1] ![0, 0, 0, 0] X v
        pads_S8x1536x32x32_S8x1536x34x34_000_000_110_110 h_S_
        (ix4 b k (⟨a, by omega⟩ : Fin 34) (⟨d, by omega⟩ : Fin 34))
      = X (ix4 b k (⟨a - 1, by omega⟩ : Fin 32) (⟨d - 1, by omega⟩ : Fin 32)) := by
  have hb := b.isLt; have hk := k.isLt
  unfold pad
  split
  · refine congrArg X (funext fun q => Fin.ext ?_)
    match q with
    | ⟨0, _⟩ => show (b.val - 0) / (0 + 1) = b.val; omega
    | ⟨1, _⟩ => show (k.val - 0) / (0 + 1) = k.val; omega
    | ⟨2, _⟩ => show (a - 1) / (0 + 1) = a - 1; omega
    | ⟨3, _⟩ => show (d - 1) / (0 + 1) = d - 1; omega
  · rename_i hout
    refine absurd (fun q => ?_) hout
    match q with
    | ⟨0, _⟩ =>
      show 0 ≤ b.val ∧ (b.val - 0) % (0 + 1) = 0 ∧ (b.val - 0) / (0 + 1) < 8
      omega
    | ⟨1, _⟩ =>
      show 0 ≤ k.val ∧ (k.val - 0) % (0 + 1) = 0 ∧ (k.val - 0) / (0 + 1) < 1536
      omega
    | ⟨2, _⟩ =>
      show 1 ≤ a ∧ (a - 1) % (0 + 1) = 0 ∧ (a - 1) / (0 + 1) < 32
      omega
    | ⟨3, _⟩ =>
      show 1 ≤ d ∧ (d - 1) % (0 + 1) = 0 ∧ (d - 1) / (0 + 1) < 32
      omega

/-- On the border the bordered array is the padding value. -/
theorem pad_outside (X : FVec Ideal S8x1536x32x32 .f32) (v : FVec Ideal S_ .f32) (b : Fin 8) (k : Fin 1536)
    (a d : ℕ) (ha : a < 34) (hd : d < 34) (hout : ¬((1 ≤ a ∧ a ≤ 32) ∧ (1 ≤ d ∧ d ≤ 32))) :
    pad S8x1536x34x34 ![0, 0, 1, 1] ![0, 0, 1, 1] ![0, 0, 0, 0] X v
        pads_S8x1536x32x32_S8x1536x34x34_000_000_110_110 h_S_
        (ix4 b k (⟨a, ha⟩ : Fin 34) (⟨d, hd⟩ : Fin 34))
      = v (Shape.Idx.first h_S_) := by
  unfold pad
  split
  · rename_i hin
    exfalso
    have hin2 := hin ⟨2, by decide⟩
    have hin3 := hin ⟨3, by decide⟩
    have h2 : 1 ≤ a ∧ (a - 1) % (0 + 1) = 0 ∧ (a - 1) / (0 + 1) < 32 := hin2
    have h3 : 1 ≤ d ∧ (d - 1) % (0 + 1) = 0 ∧ (d - 1) / (0 + 1) < 32 := hin3
    exact hout ⟨⟨h2.1, by omega⟩, ⟨h3.1, by omega⟩⟩
  · rfl

/-- The padding value: the integer zero converted. -/
theorem padValue_read : val_main_call0_v0 (F := Ideal) (Shape.Idx.first h_S_) = padVal := rfl

/-- Plane `2c + e` of the bordered feature map at `(a, d)`: the image's pixel `(a - 1, d - 1)` inside, the padding
    value on the border. -/
theorem padded_read (A : Arg) (b : Fin 8) (c : Fin 768) (e : Fin 2) (a d : ℕ) (ha : a < 34) (hd : d < 34) :
    val_main_v2 (F := Ideal) A (ix4 b (plane c e) (⟨a, ha⟩ : Fin 34) (⟨d, hd⟩ : Fin 34))
      = if hh : (1 ≤ a ∧ a ≤ 32) ∧ (1 ≤ d ∧ d ≤ 32) then
          A (ix3 b (⟨e.val * 1024 + (a - 1) * 32 + (d - 1), by have := e.isLt; omega⟩ : Fin 2048) c)
        else padVal := by
  unfold val_main_v2
  by_cases hh : (1 ≤ a ∧ a ≤ 32) ∧ (1 ≤ d ∧ d ≤ 32)
  · rw [dif_pos hh]
    refine (pad_inside _ _ b (plane c e) a d hh.1 hh.2).trans ?_
    exact fm_read A b c e ⟨a - 1, by omega⟩ ⟨d - 1, by omega⟩
  · rw [dif_neg hh]
    exact (pad_outside _ _ b (plane c e) a d ha hd hh).trans padValue_read

/-! ## The windows -/

/-- A slice of the bordered array at offsets `(0, 0, i, j)` reads it at `(h + i, w + j)`. -/
theorem slice_read (i j : ℕ) (hi : i ≤ 2) (hj : j ≤ 2) (X : FVec Ideal S8x1536x34x34 .f32)
    (hs : S8x1536x34x34.Slices ![0, 0, i, j] S8x1536x32x32) (b : Fin 8) (k : Fin 1536) (h w : Fin 32) :
    extractStridedSlice S8x1536x32x32 ![0, 0, i, j] X hs (ix4 b k h w)
      = X (ix4 b k (⟨h.val + i, by have := h.isLt; omega⟩ : Fin 34) (⟨w.val + j, by have := w.isLt; omega⟩ : Fin 34)) :=
  extractStridedSlice_apply ![0, 0, i, j] X hs (ix4 b k h w) _ (fun q => match q with
    | ⟨0, _⟩ => by show b.val = 0 + b.val; omega
    | ⟨1, _⟩ => by show k.val = 0 + k.val; omega
    | ⟨2, _⟩ => by show h.val + i = i + h.val; omega
    | ⟨3, _⟩ => by show w.val + j = j + w.val; omega)

/-- Plane `2c + e` of the window of offset `(i, j)` at pixel `(h, w)` is the specification's window there. -/
theorem win_read (A : Arg) (i j : Fin 3) (hs : S8x1536x34x34.Slices ![0, 0, i.val, j.val] S8x1536x32x32)
    (b : Fin 8) (c : Fin 768) (e : Fin 2) (h w : Fin 32) :
    extractStridedSlice S8x1536x32x32 ![0, 0, i.val, j.val] (val_main_v2 (F := Ideal) A) hs (ix4 b (plane c e) h w)
      = window A b h w i j e c := by
  have hi := i.isLt; have hj := j.isLt
  refine (slice_read i.val j.val (by omega) (by omega) _ hs b (plane c e) h w).trans ?_
  exact padded_read A b c e (h.val + i.val) (w.val + j.val) _ _

theorem win00_read (A : Arg) (b : Fin 8) (c : Fin 768) (e : Fin 2) (h w : Fin 32) :
    val_main_v9 (F := Ideal) A (ix4 b (plane c e) h w) = window A b h w 0 0 e c :=
  win_read A 0 0 slices_S8x1536x34x34_S8x1536x32x32_0_0_0_0 b c e h w
theorem win01_read (A : Arg) (b : Fin 8) (c : Fin 768) (e : Fin 2) (h w : Fin 32) :
    val_main_v20 (F := Ideal) A (ix4 b (plane c e) h w) = window A b h w 0 1 e c :=
  win_read A 0 1 slices_S8x1536x34x34_S8x1536x32x32_0_0_0_1 b c e h w
theorem win02_read (A : Arg) (b : Fin 8) (c : Fin 768) (e : Fin 2) (h w : Fin 32) :
    val_main_v31 (F := Ideal) A (ix4 b (plane c e) h w) = window A b h w 0 2 e c :=
  win_read A 0 2 slices_S8x1536x34x34_S8x1536x32x32_0_0_0_2 b c e h w
theorem win10_read (A : Arg) (b : Fin 8) (c : Fin 768) (e : Fin 2) (h w : Fin 32) :
    val_main_v42 (F := Ideal) A (ix4 b (plane c e) h w) = window A b h w 1 0 e c :=
  win_read A 1 0 slices_S8x1536x34x34_S8x1536x32x32_0_0_1_0 b c e h w
theorem win11_read (A : Arg) (b : Fin 8) (c : Fin 768) (e : Fin 2) (h w : Fin 32) :
    val_main_v53 (F := Ideal) A (ix4 b (plane c e) h w) = window A b h w 1 1 e c :=
  win_read A 1 1 slices_S8x1536x34x34_S8x1536x32x32_0_0_1_1 b c e h w
theorem win12_read (A : Arg) (b : Fin 8) (c : Fin 768) (e : Fin 2) (h w : Fin 32) :
    val_main_v64 (F := Ideal) A (ix4 b (plane c e) h w) = window A b h w 1 2 e c :=
  win_read A 1 2 slices_S8x1536x34x34_S8x1536x32x32_0_0_1_2 b c e h w
theorem win20_read (A : Arg) (b : Fin 8) (c : Fin 768) (e : Fin 2) (h w : Fin 32) :
    val_main_v75 (F := Ideal) A (ix4 b (plane c e) h w) = window A b h w 2 0 e c :=
  win_read A 2 0 slices_S8x1536x34x34_S8x1536x32x32_0_0_2_0 b c e h w
theorem win21_read (A : Arg) (b : Fin 8) (c : Fin 768) (e : Fin 2) (h w : Fin 32) :
    val_main_v86 (F := Ideal) A (ix4 b (plane c e) h w) = window A b h w 2 1 e c :=
  win_read A 2 1 slices_S8x1536x34x34_S8x1536x32x32_0_0_2_1 b c e h w
theorem win22_read (A : Arg) (b : Fin 8) (c : Fin 768) (e : Fin 2) (h w : Fin 32) :
    val_main_v97 (F := Ideal) A (ix4 b (plane c e) h w) = window A b h w 2 2 e c :=
  win_read A 2 2 slices_S8x1536x34x34_S8x1536x32x32_0_0_2_2 b c e h w

end Cert.ReferenceIdeal.RefValue

end
-- ==== Proof.RefSim.lean ====
/-
  One window's cosine term, as the reference's host operations compute it, is the specification's.

  For each of the nine windows the reference multiplies the feature map by the window, sums the 1536 planes from
  the zero word (the dot product), does the same for the window with itself, takes the square root, keeps it
  above `eps`, multiplies by the centre's norm and divides. At a pixel `(b, h, w)` every one of these operations
  acts on the values at that pixel, and a sum along the planes is zero plus the sum over `k` of the operand at
  `(b, k, h, w)` (`planeSum_read`, `hostTerm_read`). Plane `2c + e` holds channel `c` of half `e`, so a sum of products
  over the 1536 planes is the specification's `pairSum` (`planes_pairSum`, from the specification's law for an
  interleaved row). Hence the centre's norm is `rowNorm` of the centre's rows (`centreNorm_read`) and a window's term
  is `cosTerm` of the centre's rows and the window's (`term_read` and its nine instances).
-/
import proofs.«165843_j36532991820508_1_alg».proof.Proof.RefReads

noncomputable section

namespace Cert.ReferenceIdeal.RefValue

open Cert.ReferenceIdeal Cert.ReferenceIdeal.Gen Cert.ReferenceIdeal.Read Cert.WindowCosine
  Idealize.ShloMosaic Idealize.ShloMosaic.ValueIdx

/-! ## A sum along the planes -/

/-- The host's sum of the 1536 planes from the zero word, at a pixel. -/
theorem planeSum_read (X : FVec Ideal S8x1536x32x32 .f32) (b : Fin 8) (h w : Fin 32) :
    Host.reduceAdd (F := Ideal) X (constant (F := Ideal) S_ .f32 0x00000000#32)
        reducesTo_S8x1536x32x32_S8x32x32_d1 h_S_ (ix3 b h w)
      = zeroW + ∑ k : Fin 1536, X (ix4 b k h w) := by
  simp only [Host.reduceAdd, Ideal.hostReduceAdd_def]
  rw [Ideal.hostReduceAdd_single reducesTo_S8x1536x32x32_S8x32x32_d1 (by decide)]
  refine congrArg (_ + ·) (Finset.sum_congr rfl fun k _ => ?_)
  exact congrArg X (funext fun a => Fin.ext (by
    match a with | ⟨0, _⟩ => rfl | ⟨1, _⟩ => rfl | ⟨2, _⟩ => rfl | ⟨3, _⟩ => rfl))

/-- When plane `2c + e` of `X`, `Y` at a pixel holds entry `(e, c)` of the rows `u`, `v`, the sum from zero of the
    products of the planes there is `pairSum u v`. -/
theorem planes_pairSum (X Y : FVec Ideal S8x1536x32x32 .f32) (u v : Rows) (b : Fin 8) (h w : Fin 32)
    (hX : ∀ (c : Fin 768) (e : Fin 2), X (ix4 b (plane c e) h w) = u e c)
    (hY : ∀ (c : Fin 768) (e : Fin 2), Y (ix4 b (plane c e) h w) = v e c) :
    zeroW + ∑ k : Fin 1536, X (ix4 b k h w) * Y (ix4 b k h w) = pairSum u v :=
  pairSum_of_interleaved u v (fun k => X (ix4 b k h w)) (fun k => Y (ix4 b k h w))
    (fun c => hX c 0) (fun c => hX c 1) (fun c => hY c 0) (fun c => hY c 1)

/-! ## One window's term -/

/-- A window's term as the host computes it from the feature map `fm`, the window `win` and the centre's norm
    `ncen`: the dot product along the planes over the centre's norm times the window's. -/
def hostTerm (fm win : FVec Ideal S8x1536x32x32 .f32) (ncen : FVec Ideal S8x32x32 .f32) :
    FVec Ideal S8x32x32 .f32 :=
  Host.divf (F := Ideal)
    (Host.reduceAdd (F := Ideal) (mulf fm win) (constant (F := Ideal) S_ .f32 0x00000000#32)
      reducesTo_S8x1536x32x32_S8x32x32_d1 h_S_)
    (mulf ncen
      (maximumf
        (Host.sqrt (F := Ideal)
          (Host.reduceAdd (F := Ideal) (mulf win win) (constant (F := Ideal) S_ .f32 0x00000000#32)
            reducesTo_S8x1536x32x32_S8x32x32_d1 h_S_))
        (broadcastInDim S8x32x32 ![] bcast_S_S8x32x32 (constant (F := Ideal) S_ .f32 0x322BCC77#32))))

/-- That term at a pixel. -/
theorem hostTerm_read (fm win : FVec Ideal S8x1536x32x32 .f32) (ncen : FVec Ideal S8x32x32 .f32)
    (b : Fin 8) (h w : Fin 32) :
    hostTerm fm win ncen (ix3 b h w)
      = Ideal.div (zeroW + ∑ k : Fin 1536, fm (ix4 b k h w) * win (ix4 b k h w))
          (ncen (ix3 b h w)
            * max (Ideal.sqrt (zeroW + ∑ k : Fin 1536, win (ix4 b k h w) * win (ix4 b k h w))) epsW) := by
  have e1 := planeSum_read (mulf fm win) b h w
  have e2 := planeSum_read (mulf win win) b h w
  show Ideal.div
      (Host.reduceAdd (F := Ideal) (mulf fm win) (constant (F := Ideal) S_ .f32 0x00000000#32)
        reducesTo_S8x1536x32x32_S8x32x32_d1 h_S_ (ix3 b h w))
      (ncen (ix3 b h w)
        * max (Ideal.sqrt
            (Host.reduceAdd (F := Ideal) (mulf win win) (constant (F := Ideal) S_ .f32 0x00000000#32)
              reducesTo_S8x1536x32x32_S8x32x32_d1 h_S_ (ix3 b h w))) epsW) = _
  rw [e1, e2]
  rfl

/-- The centre's norm at a pixel is the norm of its two rows. -/
theorem centreNorm_read (A : Arg) (b : Fin 8) (h w : Fin 32) :
    val_main_v7 (F := Ideal) A (ix3 b h w) = rowNorm (centre A b h w) := by
  have e1 := planeSum_read (mulf (val_main_v1 (F := Ideal) A) (val_main_v1 (F := Ideal) A)) b h w
  show max (Ideal.sqrt
      (Host.reduceAdd (F := Ideal) (mulf (val_main_v1 (F := Ideal) A) (val_main_v1 (F := Ideal) A))
        (constant (F := Ideal) S_ .f32 0x00000000#32) reducesTo_S8x1536x32x32_S8x32x32_d1 h_S_ (ix3 b h w))) epsW = _
  rw [e1]
  unfold rowNorm
  refine congrArg (fun x => max (Ideal.sqrt x) epsW) ?_
  exact planes_pairSum _ _ (centre A b h w) (centre A b h w) b h w
    (fun c e => fm_read A b c e h w) (fun c e => fm_read A b c e h w)

/-- A window's term at a pixel is the cosine term of the centre's rows and the window's rows, whenever plane
    `2c + e` of the window there holds entry `(e, c)` of those rows. -/
theorem term_read (A : Arg) (win : FVec Ideal S8x1536x32x32 .f32) (v : Rows) (b : Fin 8) (h w : Fin 32)
    (hwin : ∀ (c : Fin 768) (e : Fin 2), win (ix4 b (plane c e) h w) = v e c) :
    hostTerm (val_main_v1 (F := Ideal) A) win (val_main_v7 (F := Ideal) A) (ix3 b h w)
      = cosTerm (centre A b h w) v := by
  refine (hostTerm_read _ _ _ b h w).trans ?_
  rw [centreNorm_read,
    planes_pairSum (val_main_v1 (F := Ideal) A) win (centre A b h w) v b h w (fun c e => fm_read A b c e h w) hwin,
    planes_pairSum win win v v b h w hwin hwin]
  rfl

/-! ## The nine terms -/

theorem term00_read (A : Arg) (b : Fin 8) (h w : Fin 32) :
    val_main_v18 (F := Ideal) A (ix3 b h w) = cosTerm (centre A b h w) (window A b h w 0 0) :=
  term_read A (val_main_v9 (F := Ideal) A) _ b h w (fun c e => win00_read A b c e h w)
theorem term01_read (A : Arg) (b : Fin 8) (h w : Fin 32) :
    val_main_v29 (F := Ideal) A (ix3 b h w) = cosTerm (centre A b h w) (window A b h w 0 1) :=
  term_read A (val_main_v20 (F := Ideal) A) _ b h w (fun c e => win01_read A b c e h w)
theorem term02_read (A : Arg) (b : Fin 8) (h w : Fin 32) :
    val_main_v40 (F := Ideal) A (ix3 b h w) = cosTerm (centre A b h w) (window A b h w 0 2) :=
  term_read A (val_main_v31 (F := Ideal) A) _ b h w (fun c e => win02_read A b c e h w)
theorem term10_read (A : Arg) (b : Fin 8) (h w : Fin 32) :
    val_main_v51 (F := Ideal) A (ix3 b h w) = cosTerm (centre A b h w) (window A b h w 1 0) :=
  term_read A (val_main_v42 (F := Ideal) A) _ b h w (fun c e => win10_read A b c e h w)
theorem term11_read (A : Arg) (b : Fin 8) (h w : Fin 32) :
    val_main_v62 (F := Ideal) A (ix3 b h w) = cosTerm (centre A b h w) (window A b h w 1 1) :=
  term_read A (val_main_v53 (F := Ideal) A) _ b h w (fun c e => win11_read A b c e h w)
theorem term12_read (A : Arg) (b : Fin 8) (h w : Fin 32) :
    val_main_v73 (F := Ideal) A (ix3 b h w) = cosTerm (centre A b h w) (window A b h w 1 2) :=
  term_read A (val_main_v64 (F := Ideal) A) _ b h w (fun c e => win12_read A b c e h w)
theorem term20_read (A : Arg) (b : Fin 8) (h w : Fin 32) :
    val_main_v84 (F := Ideal) A (ix3 b h w) = cosTerm (centre A b h w) (window A b h w 2 0) :=
  term_read A (val_main_v75 (F := Ideal) A) _ b h w (fun c e => win20_read A b c e h w)
theorem term21_read (A : Arg) (b : Fin 8) (h w : Fin 32) :
    val_main_v95 (F := Ideal) A (ix3 b h w) = cosTerm (centre A b h w) (window A b h w 2 1) :=
  term_read A (val_main_v86 (F := Ideal) A) _ b h w (fun c e => win21_read A b c e h w)
theorem term22_read (A : Arg) (b : Fin 8) (h w : Fin 32) :
    val_main_v106 (F := Ideal) A (ix3 b h w) = cosTerm (centre A b h w) (window A b h w 2 2) :=
  term_read A (val_main_v97 (F := Ideal) A) _ b h w (fun c e => win22_read A b c e h w)

end Cert.ReferenceIdeal.RefValue

end
-- ==== Proof.RefResult.lean ====
/-
  The reference's result is the specification's `G`.

  The nine window terms are added to the zero word in row-major order of the offsets and the sum is divided by
  nine twice: at a pixel that is the specification's `simOf` of the centre's rows and the window's rows
  (`sim_read`). The similarity [8, 32, 32] is broadcast along the 1536 planes, multiplied into the feature map, and
  the product is reshaped row-major to [8, 768, 2048] and transposed to [8, 2048, 768]. Row-major position
  `(b · 768 + c) · 2048 + s` is position `((b · 1536 + k) · 32 + h) · 32 + w` with `k = 2c + s / 1024`,
  `h = s / 32 % 32`, `w = s % 32`; the feature map there is `A (b, s, c)`, since
  `(s / 1024) · 1024 + (s / 32 % 32) · 32 + s % 32 = s` below 2048. So the result at `(b, s, c)` is `A (b, s, c)`
  times the similarity of the pixel of `s` (`result_at`, `result_eq`).
-/
import proofs.«165843_j36532991820508_1_alg».proof.Proof.RefSim

noncomputable section

namespace Cert.ReferenceIdeal.RefValue

open Cert.ReferenceIdeal Cert.ReferenceIdeal.Gen Cert.ReferenceIdeal.Read Cert.WindowCosine
  Idealize.ShloMosaic Idealize.ShloMosaic.ValueIdx

/-- The similarity of a pixel: zero plus the nine terms in row-major order, divided by nine twice. -/
theorem sim_read (A : Arg) (b : Fin 8) (h w : Fin 32) :
    val_main_v111 (F := Ideal) A (ix3 b h w) = simOf (centre A b h w) (window A b h w) := by
  show Ideal.div (Ideal.div
      (zeroW + val_main_v18 (F := Ideal) A (ix3 b h w) + val_main_v29 (F := Ideal) A (ix3 b h w)
        + val_main_v40 (F := Ideal) A (ix3 b h w) + val_main_v51 (F := Ideal) A (ix3 b h w)
        + val_main_v62 (F := Ideal) A (ix3 b h w) + val_main_v73 (F := Ideal) A (ix3 b h w)
        + val_main_v84 (F := Ideal) A (ix3 b h w) + val_main_v95 (F := Ideal) A (ix3 b h w)
        + val_main_v106 (F := Ideal) A (ix3 b h w)) nineW) nineW = _
  rw [term00_read, term01_read, term02_read, term10_read, term11_read, term12_read, term20_read, term21_read,
    term22_read]
  rfl

/-- The similarity broadcast along the planes, at plane `k` of a pixel, is the pixel's similarity. -/
theorem simPlanes_read (A : Arg) (b : Fin 8) (k : Fin 1536) (h w : Fin 32) :
    val_main_v113 (F := Ideal) A (ix4 b k h w) = simOf (centre A b h w) (window A b h w) := by
  refine (val_main_v113_apply (F := Ideal) A _).trans ?_
  refine (val_main_v112_apply (F := Ideal) A _).trans ?_
  have e : idx_main_v112 (idx_main_v113 (ix4 b k h w)) = ix3 b h w :=
    funext fun a => Fin.ext (by match a with | ⟨0, _⟩ => rfl | ⟨1, _⟩ => rfl | ⟨2, _⟩ => rfl)
  rw [e]
  exact sim_read A b h w

/-- The result at `(b, s, c)`. -/
theorem result_at (A : Arg) (b : Fin 8) (s : Fin 2048) (c : Fin 768) :
    val_main_v116 (F := Ideal) A (ix3 b s c) = G A (ix3 b s c) := by
  have hb := b.isLt; have hs := s.isLt; have hc := c.isLt
  have e : idx_main_v115 (idx_main_v116 (ix3 b s c))
      = ix4 b (plane c (⟨s.val / 1024, by omega⟩ : Fin 2)) (rowOf s.val) (colOf s.val) :=
    funext fun a => Fin.ext (by
      match a with
      | ⟨0, _⟩ => show ((b.val * 768 + c.val) * 2048 + s.val) / 1572864 = b.val; omega
      | ⟨1, _⟩ => show ((b.val * 768 + c.val) * 2048 + s.val) / 1024 % 1536 = 2 * c.val + s.val / 1024; omega
      | ⟨2, _⟩ => show ((b.val * 768 + c.val) * 2048 + s.val) / 32 % 32 = s.val / 32 % 32; omega
      | ⟨3, _⟩ => show ((b.val * 768 + c.val) * 2048 + s.val) % 32 = s.val % 32; omega)
  refine (val_main_v116_apply (F := Ideal) A _).trans ?_
  refine (val_main_v115_apply (F := Ideal) A _).trans ?_
  rw [e]
  show val_main_v1 (F := Ideal) A (ix4 b (plane c (⟨s.val / 1024, by omega⟩ : Fin 2)) (rowOf s.val) (colOf s.val))
      * val_main_v113 (F := Ideal) A (ix4 b (plane c (⟨s.val / 1024, by omega⟩ : Fin 2)) (rowOf s.val) (colOf s.val))
    = A (ix3 b s c) * simOf (centre A b (rowOf s.val) (colOf s.val)) (window A b (rowOf s.val) (colOf s.val))
  rw [simPlanes_read, fm_read]
  refine congrArg (· * _) ?_
  show A _ = A _
  refine congrArg A (funext fun a => Fin.ext ?_)
  match a with
  | ⟨0, _⟩ => rfl
  | ⟨1, _⟩ => show s.val / 1024 * 1024 + s.val / 32 % 32 * 32 + s.val % 32 = s.val; omega
  | ⟨2, _⟩ => rfl

/-- THE REFERENCE IS THE SPECIFICATION: the reference's result, as a function of its argument, is `G`. -/
theorem result_eq (A : (⟨Cert.ReferenceIdeal.S8x2048x768, .f32⟩ : BufTy).Contents (Elt Ideal)) :
    Cert.ReferenceIdeal.Read.val_main_v116 (F := Ideal) A = Cert.WindowCosine.G A := by
  funext y
  obtain ⟨b, s, c, rfl⟩ : ∃ (b : Fin 8) (s : Fin 2048) (c : Fin 768), y = ix3 b s c := ⟨y 0, y 1, y 2, eq_ix3 y⟩
  exact result_at A b s c

end Cert.ReferenceIdeal.RefValue

end
-- ==== Proof.lean ====
/-
  The certificate of a windowed cosine-similarity modulation: a kernel on blocks of one batch against a jnp
  reference on the whole array, equal as extended reals.

  The argument is an array [8, 2048, 768]; each batch's 2048 sequence positions are two halves of a 32 × 32 image
  with 768 channels each, 1536 channels per pixel in all. For every pixel the similarity is the mean over the 3 × 3
  window around it (zero beyond the image) of the cosine between the pixel's channels and the window pixel's,
  each length kept at least eps, divided by nine once more; the result multiplies every element by the similarity
  of its pixel. The reference transposes and reshapes the array to [8, 1536, 32, 32], channel `c` of half `e` at
  position `2c + e`, pads, and sums over the 1536 axis; the kernel works per batch on the two halves as images
  [32, 32, 768], borders them by concatenation, and adds the two halves' lane sums. The two differ only in how the
  1536 products of a pixel are grouped into a sum, and addition of extended reals is commutative and associative,
  so the precondition is never used.

  Spec.lean states the common function `G` of the argument array; KernelReads, KernelSim, KernelBlock and KernelRun
  read the kernel's run as `G` off its frame run; RefReads, RefSim and RefResult read the reference's run as `G`.
  The frames of the two kernel programs are their frame runs; the reference's frame is its run with the result
  dropped; the idealization rewrote no operation, so `preserves` is `True`.
-/
import proofs.«165843_j36532991820508_1_alg».proof.Defs
import proofs.«165843_j36532991820508_1_alg».proof.Proof.Gen.Kernel
import proofs.«165843_j36532991820508_1_alg».proof.Proof.Gen.Kernel.Skeleton
import proofs.«165843_j36532991820508_1_alg».proof.Proof.Gen.Kernel.Launch
import proofs.«165843_j36532991820508_1_alg».proof.Proof.Gen.Kernel.Points
import proofs.«165843_j36532991820508_1_alg».proof.Proof.Gen.Kernel.Frame
import proofs.«165843_j36532991820508_1_alg».proof.Proof.Gen.KernelIdeal
import proofs.«165843_j36532991820508_1_alg».proof.Proof.Gen.KernelIdeal.Skeleton
import proofs.«165843_j36532991820508_1_alg».proof.Proof.Gen.KernelIdeal.Launch
import proofs.«165843_j36532991820508_1_alg».proof.Proof.Gen.KernelIdeal.Points
import proofs.«165843_j36532991820508_1_alg».proof.Proof.Gen.KernelIdeal.Frame
import proofs.«165843_j36532991820508_1_alg».proof.Proof.Gen.ReferenceIdeal
import proofs.«165843_j36532991820508_1_alg».proof.Proof.Gen.Pre_finite_inputs
import proofs.«165843_j36532991820508_1_alg».proof.Proof.Gen.ReferenceIdeal.Run
import proofs.«165843_j36532991820508_1_alg».proof.Proof.Gen.ReferenceIdeal.Read
import proofs.«165843_j36532991820508_1_alg».proof.Proof.KernelRun
import proofs.«165843_j36532991820508_1_alg».proof.Proof.RefResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `G` of the argument array, and the two argument arrays agree. -/
theorem algebraic : Cert.algebraic_KernelIdeal_ReferenceIdeal := by
  intro m ρ m' ρ' _ hagree
  refine ⟨fun c => Cert.WindowCosine.G (m ((c.tc : Thread Cert.KernelIdeal.nD Cert.KernelIdeal.τ).loc Cert.KernelIdeal.main_arg0)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v116_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
